-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x5 : Shape := ⟨2, ![4194304, 5]⟩
abbrev S_ : Shape := ⟨0, ![]⟩

class Facts : Prop where
  bcast_S_S4194304x5 : S_.BroadcastsInDim S4194304x5 (![] : Fin 0 → Fin S4194304x5.rank)
  reducesTo_S4194304x5_S_d0_1 : S4194304x5.ReducesTo [0, 1] S_
  h_S_ : 0 < S_.numel

variable [Facts]

def fn {F : FTy → Type} [FloatOps F] (main_arg0 : FVec F S4194304x5 .f32) (main_arg1 : FVec F S4194304x5 .f32) : IVec S_ 1 :=
  let main_v0 : FVec F S4194304x5 .f32 := Host.absf main_arg0
  let main_cst : FVec F S_ .f32 := constant S_ .f32 0x7F800000#32
  let main_v1 : FVec F S4194304x5 .f32 := broadcastInDim S4194304x5 ![] bcast_S_S4194304x5 main_cst
  let main_v2 : IVec S4194304x5 1 := cmpf .olt main_v0 main_v1
  let main_c : IVec S_ 1 := constantI S_ 1 1#1
  let main_v3 : IVec S_ 1 := (fun x v => Host.reduce IntOp.andi x v reducesTo_S4194304x5_S_d0_1 h_S_) main_v2 main_c
  let main_v4 : FVec F S4194304x5 .f32 := Host.absf main_arg1
  let main_cst_0 : FVec F S_ .f32 := constant S_ .f32 0x7F800000#32
  let main_v5 : FVec F S4194304x5 .f32 := broadcastInDim S4194304x5 ![] bcast_S_S4194304x5 main_cst_0
  let main_v6 : IVec S4194304x5 1 := cmpf .olt main_v4 main_v5
  let main_c_1 : IVec S_ 1 := constantI S_ 1 1#1
  let main_v7 : IVec S_ 1 := (fun x v => Host.reduce IntOp.andi x v reducesTo_S4194304x5_S_d0_1 h_S_) main_v6 main_c_1
  let main_v8 : IVec S_ 1 := andi main_v3 main_v7
  main_v8
-- ==== Kernel.lean ====
abbrev S4194304x5 : Shape := ⟨2, ![4194304, 5]⟩
abbrev S5x4194304 : Shape := ⟨2, ![5, 4194304]⟩
abbrev S1x1 : Shape := ⟨2, ![1, 1]⟩
abbrev S5x16384 : Shape := ⟨2, ![5, 16384]⟩
abbrev S1x16384 : Shape := ⟨2, ![1, 16384]⟩
abbrev S4x16384 : Shape := ⟨2, ![4, 16384]⟩
abbrev S1 : Shape := ⟨1, ![1]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S4194304x5, .f32⟩
  | .hbm, ⟨1, _⟩ => ⟨S4194304x5, .f32⟩
  | .hbm, ⟨2, _⟩ => ⟨S5x4194304, .f32⟩
  | .hbm, ⟨3, _⟩ => ⟨S5x4194304, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S5x16384, .f32⟩
  | .local _ .vmem, ⟨1, _⟩ => ⟨S5x16384, .f32⟩
  | .local _ .vmem, ⟨2, _⟩ => ⟨S5x16384, .f32⟩
  | .local _ .vmem, ⟨3, _⟩ => ⟨S5x16384, .f32⟩
  | .local _ .vmem, ⟨4, _⟩ => ⟨S1x1, .f32⟩
  | .local _ .vmem, ⟨5, _⟩ => ⟨S1x1, .f32⟩
  | _, _ => ⟨S4194304x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![256], ![false]⟩

def k0_cond2 (i : grid0.Coords) : BitVec 1 :=
  let arg0 : BitVec 32 := BitVec.ofNat 32 (i 0).val
  let c255_i32 : BitVec 32 := 255#32
  let v112 : BitVec 1 := Scalar.cmpi .eq arg0 c255_i32
  let v113 : BitVec 32 := Scalar.extui v112
  let c0_i32_19 : BitVec 32 := 0#32
  let v114 : BitVec 1 := Scalar.cmpi .ne v113 c0_i32_19
  v114

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  transposes_S4194304x5_S5x4194304_1_0 : S4194304x5.Transposes [1, 0] S5x4194304
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S5x16384_S5x16384_0_0 : ∀ a, (![0, 0] : Fin 2 → Nat) a + S5x16384.size a ≤ S5x16384.size a
  h_S5x16384 : 0 < S5x16384.numel
  shapeCasts_S5x16384_S5x16384 : S5x16384.ShapeCasts S5x16384
  slices_S5x16384_o0_0_S1x16384 : S5x16384.Slices ![0, 0] S1x16384
  slices_S5x16384_o1_0_S4x16384 : S5x16384.Slices ![1, 0] S4x16384
  slices_S4x16384_o0_0_S1x16384 : S4x16384.Slices ![0, 0] S1x16384
  slices_S4x16384_o1_0_S1x16384 : S4x16384.Slices ![1, 0] S1x16384
  slices_S4x16384_o2_0_S1x16384 : S4x16384.Slices ![2, 0] S1x16384
  slices_S4x16384_o3_0_S1x16384 : S4x16384.Slices ![3, 0] S1x16384
  reduces_S1x16384_S1 : S1x16384.Reduces [1] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5x16384.size a ≤ S5x4194304.size a
  hwx0_0 : ∀ i : grid0.Coords, EltTy.bits .f32 = 32 ∨ (Rect.block (s := S5x4194304) S5x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5x16384.size a ≤ S5x4194304.size a
  hwx0_1 : ∀ i : grid0.Coords, EltTy.bits .f32 = 32 ∨ (Rect.block (s := S5x4194304) S5x16384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S5x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4194304x5 : Shape := ⟨2, ![4194304, 5]⟩
abbrev S4194304x4 : Shape := ⟨2, ![4194304, 4]⟩
abbrev S_ : Shape := ⟨0, ![]⟩
abbrev S4194304x1 : Shape := ⟨2, ![4194304, 1]⟩
abbrev S4194304 : Shape := ⟨1, ![4194304]⟩

abbrev nBuf : Space → Nat
  | .hbm => 179
  | .vmem => 0
  | .smem => 0
  | _ => 0

abbrev hbmTy0_0 (i : Nat) : BufTy := match i % 128 with
  | 0 => ⟨S4194304x5, .f32⟩
  | 1 => ⟨S4194304x5, .f32⟩
  | 2 => ⟨S4194304x4, .f32⟩
  | 3 => ⟨S4194304x4, .f32⟩
  | 4 => ⟨S4194304x4, .f32⟩
  | 5 => ⟨S_, .f32⟩
  | 6 => ⟨S4194304x4, .f32⟩
  | 7 => ⟨S4194304x4, .f32⟩
  | 8 => ⟨S_, .f32⟩
  | 9 => ⟨S4194304x4, .f32⟩
  | 10 => ⟨S4194304x4, .f32⟩
  | 11 => ⟨S4194304x4, .f32⟩
  | 12 => ⟨S4194304x1, .f32⟩
  | 13 => ⟨S4194304, .f32⟩
  | 14 => ⟨S4194304x1, .f32⟩
  | 15 => ⟨S4194304, .f32⟩
  | 16 => ⟨S4194304, .f32⟩
  | 17 => ⟨S4194304, .f32⟩
  | 18 => ⟨S4194304x1, .f32⟩
  | 19 => ⟨S4194304, .f32⟩
  | 20 => ⟨S4194304x1, .f32⟩
  | 21 => ⟨S4194304, .f32⟩
  | 22 => ⟨S4194304, .f32⟩
  | 23 => ⟨S4194304, .f32⟩
  | 24 => ⟨S4194304, .f32⟩
  | 25 => ⟨S4194304x1, .f32⟩
  | 26 => ⟨S4194304, .f32⟩
  | 27 => ⟨S4194304x1, .f32⟩
  | 28 => ⟨S4194304, .f32⟩
  | 29 => ⟨S4194304, .f32⟩
  | 30 => ⟨S4194304x1, .f32⟩
  | 31 => ⟨S4194304, .f32⟩
  | 32 => ⟨S4194304x1, .f32⟩
  | 33 => ⟨S4194304, .f32⟩
  | 34 => ⟨S4194304, .f32⟩
  | 35 => ⟨S4194304, .f32⟩
  | 36 => ⟨S4194304x1, .f32⟩
  | 37 => ⟨S4194304, .f32⟩
  | 38 => ⟨S4194304x1, .f32⟩
  | 39 => ⟨S4194304, .f32⟩
  | 40 => ⟨S4194304, .f32⟩
  | 41 => ⟨S4194304x1, .f32⟩
  | 42 => ⟨S4194304, .f32⟩
  | 43 => ⟨S4194304x1, .f32⟩
  | 44 => ⟨S4194304, .f32⟩
  | 45 => ⟨S4194304, .f32⟩
  | 46 => ⟨S4194304x1, .f32⟩
  | 47 => ⟨S4194304, .f32⟩
  | 48 => ⟨S4194304x1, .f32⟩
  | 49 => ⟨S4194304, .f32⟩
  | 50 => ⟨S4194304, .f32⟩
  | 51 => ⟨S4194304x1, .f32⟩
  | 52 => ⟨S4194304, .f32⟩
  | 53 => ⟨S4194304x1, .f32⟩
  | 54 => ⟨S4194304, .f32⟩
  | 55 => ⟨S4194304, .f32⟩
  | 56 => ⟨S4194304x1, .f32⟩
  | 57 => ⟨S4194304, .f32⟩
  | 58 => ⟨S4194304, .f32⟩
  | 59 => ⟨S4194304x1, .f32⟩
  | 60 => ⟨S4194304, .f32⟩
  | 61 => ⟨S4194304, .f32⟩
  | 62 => ⟨S4194304x1, .f32⟩
  | 63 => ⟨S4194304, .f32⟩
  | 64 => ⟨S4194304, .f32⟩
  | 65 => ⟨S4194304x1, .f32⟩
  | 66 => ⟨S4194304, .f32⟩
  | 67 => ⟨S4194304, .f32⟩
  | 68 => ⟨S4194304, .f32⟩
  | 69 => ⟨S4194304, .f32⟩
  | 70 => ⟨S4194304, .f32⟩
  | 71 => ⟨S_, .f32⟩
  | 72 => ⟨S4194304, .f32⟩
  | 73 => ⟨S4194304, .i1⟩
  | 74 => ⟨S_, .f32⟩
  | 75 => ⟨S_, .f32⟩
  | 76 => ⟨S4194304, .f32⟩
  | 77 => ⟨S4194304, .f32⟩
  | 78 => ⟨S4194304x1, .f32⟩
  | 79 => ⟨S4194304, .f32⟩
  | 80 => ⟨S4194304, .f32⟩
  | 81 => ⟨S4194304x1, .f32⟩
  | 82 => ⟨S4194304, .f32⟩
  | 83 => ⟨S4194304, .f32⟩
  | 84 => ⟨S4194304x1, .f32⟩
  | 85 => ⟨S4194304, .f32⟩
  | 86 => ⟨S4194304, .f32⟩
  | 87 => ⟨S4194304x1, .f32⟩
  | 88 => ⟨S4194304, .f32⟩
  | 89 => ⟨S4194304, .f32⟩
  | 90 => ⟨S4194304, .f32⟩
  | 91 => ⟨S4194304, .f32⟩
  | 92 => ⟨S4194304, .f32⟩
  | 93 => ⟨S4194304x1, .f32⟩
  | 94 => ⟨S4194304, .f32⟩
  | 95 => ⟨S4194304x1, .f32⟩
  | 96 => ⟨S4194304, .f32⟩
  | 97 => ⟨S4194304, .f32⟩
  | 98 => ⟨S4194304, .f32⟩
  | 99 => ⟨S4194304x1, .f32⟩
  | 100 => ⟨S4194304, .f32⟩
  | 101 => ⟨S4194304x1, .f32⟩
  | 102 => ⟨S4194304, .f32⟩
  | 103 => ⟨S4194304, .f32⟩
  | 104 => ⟨S4194304, .f32⟩
  | 105 => ⟨S4194304, .f32⟩
  | 106 => ⟨S4194304, .f32⟩
  | 107 => ⟨S4194304, .f32⟩
  | 108 => ⟨S_, .f32⟩
  | 109 => ⟨S4194304, .f32⟩
  | 110 => ⟨S4194304, .f32⟩
  | 111 => ⟨S4194304, .f32⟩
  | 112 => ⟨S_, .f32⟩
  | 113 => ⟨S4194304, .f32⟩
  | 114 => ⟨S4194304, .f32⟩
  | 115 => ⟨S4194304x1, .f32⟩
  | 116 => ⟨S4194304, .f32⟩
  | 117 => ⟨S4194304x1, .f32⟩
  | 118 => ⟨S4194304, .f32⟩
  | 119 => ⟨S4194304, .f32⟩
  | 120 => ⟨S_, .f32⟩
  | 121 => ⟨S4194304, .f32⟩
  | 122 => ⟨S4194304, .f32⟩
  | 123 => ⟨S4194304x1, .f32⟩
  | 124 => ⟨S4194304, .f32⟩
  | 125 => ⟨S4194304x1, .f32⟩
  | 126 => ⟨S4194304, .f32⟩
  | 127 => ⟨S4194304, .f32⟩
  | _ => ⟨S4194304x5, .f32⟩

abbrev hbmTy0_1 (i : Nat) : BufTy := match i % 128 with
  | 0 => ⟨S_, .f32⟩
  | 1 => ⟨S4194304, .f32⟩
  | 2 => ⟨S4194304, .f32⟩
  | 3 => ⟨S4194304, .f32⟩
  | 4 => ⟨S4194304, .f32⟩
  | 5 => ⟨S4194304, .f32⟩
  | 6 => ⟨S4194304, .f32⟩
  | 7 => ⟨S4194304, .f32⟩
  | 8 => ⟨S4194304, .f32⟩
  | 9 => ⟨S4194304, .f32⟩
  | 10 => ⟨S4194304, .f32⟩
  | 11 => ⟨S4194304, .f32⟩
  | 12 => ⟨S4194304, .f32⟩
  | 13 => ⟨S4194304, .f32⟩
  | 14 => ⟨S4194304, .f32⟩
  | 15 => ⟨S4194304, .f32⟩
  | 16 => ⟨S4194304, .f32⟩
  | 17 => ⟨S4194304, .f32⟩
  | 18 => ⟨S4194304, .f32⟩
  | 19 => ⟨S4194304, .f32⟩
  | 20 => ⟨S4194304, .f32⟩
  | 21 => ⟨S4194304, .f32⟩
  | 22 => ⟨S4194304, .f32⟩
  | 23 => ⟨S_, .f32⟩
  | 24 => ⟨S4194304, .f32⟩
  | 25 => ⟨S4194304, .f32⟩
  | 26 => ⟨S_, .f32⟩
  | 27 => ⟨S_, .f32⟩
  | 28 => ⟨S_, .f32⟩
  | 29 => ⟨S_, .f32⟩
  | 30 => ⟨S4194304x1, .f32⟩
  | 31 => ⟨S4194304, .f32⟩
  | 32 => ⟨S4194304x1, .f32⟩
  | 33 => ⟨S4194304, .f32⟩
  | 34 => ⟨S_, .f32⟩
  | 35 => ⟨S4194304, .f32⟩
  | 36 => ⟨S4194304, .f32⟩
  | 37 => ⟨S4194304, .f32⟩
  | 38 => ⟨S4194304, .f32⟩
  | 39 => ⟨S4194304, .f32⟩
  | 40 => ⟨S4194304, .f32⟩
  | 41 => ⟨S4194304, .f32⟩
  | 42 => ⟨S4194304, .f32⟩
  | 43 => ⟨S4194304, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | _ => ⟨S4194304x5, .f32⟩

abbrev hbmTy (i : Nat) : BufTy := match i / 128 with
  | 0 => hbmTy0_0 i
  | 1 => hbmTy0_1 i
  | _ => ⟨S4194304x5, .f32⟩

abbrev bufTy : (tb : Table) → Fin (tcTables nBuf tb) → BufTy
  | .hbm, ⟨i, _⟩ => hbmTy i
  | _, _ => ⟨S4194304x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_cst_1 : Ref sig .tc := ⟨.hbm, 71, rfl⟩
abbrev main_v67 : Ref sig .tc := ⟨.hbm, 72, rfl⟩
abbrev main_v68 : Ref sig .tc := ⟨.hbm, 73, rfl⟩
abbrev main_cst_2 : Ref sig .tc := ⟨.hbm, 74, rfl⟩
abbrev main_call0_v0 : Ref sig .tc := ⟨.hbm, 75, rfl⟩
abbrev main_call0_v1 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_cst_3 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_cst_4 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_cst_5 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_cst_6 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_cst_7 : Ref sig .tc := ⟨.hbm, 151, rfl⟩
abbrev main_v139 : Ref sig .tc := ⟨.hbm, 152, rfl⟩
abbrev main_v140 : Ref sig .tc := ⟨.hbm, 153, rfl⟩
abbrev main_cst_8 : Ref sig .tc := ⟨.hbm, 154, rfl⟩
abbrev main_v141 : Ref sig .tc := ⟨.hbm, 155, rfl⟩
abbrev main_cst_9 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_cst_10 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_cst_11 : Ref sig .tc := ⟨.hbm, 172, rfl⟩
abbrev main_v156 : Ref sig .tc := ⟨.hbm, 173, rfl⟩
abbrev main_cst_12 : Ref sig .tc := ⟨.hbm, 174, rfl⟩
abbrev main_v157 : Ref sig .tc := ⟨.hbm, 175, rfl⟩
abbrev main_cst_13 : Ref sig .tc := ⟨.hbm, 176, rfl⟩
abbrev main_v158 : Ref sig .tc := ⟨.hbm, 177, rfl⟩
abbrev main_v159 : Ref sig .tc := ⟨.hbm, 178, rfl⟩

abbrev nD : Nat := 1
abbrev τ : Topo := Topo.v7x

variable {F : FTy → Type} [FloatOps F]

class Facts₀ : Prop where
  slices_S4194304x5_S4194304x4_0_1 : S4194304x5.Slices ![0, 1] S4194304x4
  bcast_S_S4194304x4 : S_.BroadcastsInDim S4194304x4 (![] : Fin 0 → Fin S4194304x4.rank)
  slices_S4194304x4_S4194304x1_0_2 : S4194304x4.Slices ![0, 2] S4194304x1
  shapeCasts_S4194304x1_S4194304 : S4194304x1.ShapeCasts S4194304
  slices_S4194304x4_S4194304x1_0_0 : S4194304x4.Slices ![0, 0] S4194304x1
  slices_S4194304x4_S4194304x1_0_3 : S4194304x4.Slices ![0, 3] S4194304x1
  slices_S4194304x4_S4194304x1_0_1 : S4194304x4.Slices ![0, 1] S4194304x1
  bcast_S_S4194304 : S_.BroadcastsInDim S4194304 (![] : Fin 0 → Fin S4194304.rank)
  reducesTo_S4194304_S_d0 : S4194304.ReducesTo [0] S_
  h_S_ : 0 < S_.numel
  slices_S4194304x5_S4194304x1_0_0 : S4194304x5.Slices ![0, 0] S4194304x1

variable [Facts₀]

class Facts : Prop extends Facts₀ where

variable [Facts]
-- ==== Proof.Spec.lean ====
/-
  The mathematics of the loss, with no program in sight. A box `i` of the N = 4194304 boxes carries five numbers
  in each of the two arrays (column 0 a logit / a label, columns 1-4 two corners). Per box: the binary cross
  entropy of the logit against the label, `bce`, and the EIoU term of the sigmoids of the predicted corners
  against the target corners, `eiou`. The loss is `coef · mean bce + mean eiou`; it is stated twice, as the
  two programs arrange the sums, over the extended reals.
-/
import Idealize.ShloMosaic.PureOps.Ideal
import Idealize.ShloMosaic.Lib.ValueIdx

noncomputable section

namespace Cert.Spec

open Idealize.ShloMosaic Idealize.ShloMosaic.ValueIdx

/-- An array of N boxes, five numbers each. -/
abbrev Boxes : Type := (⟨2, ![4194304, 5]⟩ : Shape).Idx → EReal

abbrev zero : EReal := Ideal.ofBits .f32 0x00000000#32
abbrev half : EReal := Ideal.ofBits .f32 0x3F000000#32
abbrev one : EReal := Ideal.ofBits .f32 0x3F800000#32
/-- the weight of the cross-entropy term (the float nearest 0.2) -/
abbrev coef : EReal := Ideal.ofBits .f32 0x3E4CCCCD#32
/-- the number of boxes, 4194304, as a float -/
abbrev count : EReal := Ideal.ofBits .f32 0x4A800000#32

/-- Binary cross entropy with logits, in its stable form: `max(x, 0) − x·y + log(1 + e^(−|x|))`. -/
def bce (x y : EReal) : EReal :=
  (max x zero - x * y) + Ideal.log1p (Ideal.exp (-(max x (-x))))

/-- The EIoU term of a predicted box `(p0, p1, p2, p3)` (already squashed to (0,1)) against a target box
    `(t0, t1, t2, t3)`: one minus (IoU minus the centre, width and height penalties). The predicted corners
    are ordered by min / max; a negative product of the intersection's sides is clamped to zero. -/
def eiou (p0 p1 p2 p3 t0 t1 t2 t3 : EReal) : EReal :=
  let parea := max (p2 - p0) (-(p2 - p0)) * max (p3 - p1) (-(p3 - p1))
  let tarea := (t2 - t0) * (t3 - t1)
  let xlo := min p2 p0
  let xhi := max p2 p0
  let ylo := min p1 p3
  let yhi := max p1 p3
  let prod := (min xhi t2 - max xlo t0) * (min yhi t3 - max ylo t1)
  let ov := Scalar.select (Ideal.cmp .olt prod zero) zero prod
  let cw := max xhi t2 - min xlo t0
  let ch := max yhi t3 - min ylo t1
  let iou := Ideal.div ov (tarea + parea - ov)
  let dx := (xhi + xlo) * half - (t2 + t0) * half
  let dy := (yhi + ylo) * half - (t3 + t1) * half
  let centre := Ideal.div (dx * dx + dy * dy) (cw * cw + ch * ch)
  let dw := (xhi - xlo) - (t2 - t0)
  let width := Ideal.div (dw * dw) (cw * cw)
  let dh := (yhi - ylo) - (t3 - t1)
  let height := Ideal.div (dh * dh) ((t3 - t1) * (t3 - t1))
  one - (iou - (centre + width + height))

/-- Box `i`'s cross-entropy term. -/
def boxB (P T : Boxes) (i : Fin 4194304) : EReal :=
  bce (P (ix2 i (0 : Fin 5))) (T (ix2 i (0 : Fin 5)))

/-- Box `i`'s EIoU term: the predicted corners go through the logistic function first. -/
def boxE (P T : Boxes) (i : Fin 4194304) : EReal :=
  eiou (Ideal.logistic (P (ix2 i (1 : Fin 5)))) (Ideal.logistic (P (ix2 i (2 : Fin 5))))
    (Ideal.logistic (P (ix2 i (3 : Fin 5)))) (Ideal.logistic (P (ix2 i (4 : Fin 5))))
    (T (ix2 i (1 : Fin 5))) (T (ix2 i (2 : Fin 5))) (T (ix2 i (3 : Fin 5))) (T (ix2 i (4 : Fin 5)))

/-- Box `d` of tile `t`, among 256 tiles of 16384 boxes. -/
abbrev boxOf (t : Fin 256) (d : Fin 16384) : Fin 4194304 :=
  ⟨t.val * 16384 + d.val, by have := t.isLt; have := d.isLt; omega⟩

/-- What tile `t` adds to the running total: its EIoU sum plus `coef` times its cross-entropy sum. -/
def tileTerm (P T : Boxes) (t : Fin 256) : EReal :=
  (∑ d : Fin 16384, boxE P T (boxOf t d)) + coef * (∑ d : Fin 16384, boxB P T (boxOf t d))

/-- The loss as the tiled program arranges it: the tiles' terms added up, divided by the count. -/
def lossTiled (P T : Boxes) : EReal :=
  Ideal.div (∑ t : Fin 256, tileTerm P T t) count

/-- The loss as the plain program arranges it: `coef` times the mean cross entropy plus the mean EIoU,
    each mean a sum from zero divided by the count. -/
def lossPlain (P T : Boxes) : EReal :=
  coef * Ideal.div (zero + ∑ i : Fin 4194304, boxB P T i) count
    + Ideal.div (zero + ∑ i : Fin 4194304, boxE P T i) count

end Cert.Spec

end
-- ==== Proof.LibBlockSums.lean ====
/-
  Two laws of finite sums in an additive commutative monoid (no finiteness of the values is needed, so they
  hold in the extended reals as they stand): a sum over n·b indices is the sum over the n blocks of the sums
  within each block, and an accumulator that adds one term per step holds the partial sum.
-/
import Idealize.ShloMosaic.PureOps.Ideal
import Mathlib.Algebra.BigOperators.Fin
import Mathlib.Logic.Equiv.Fin.Basic

open scoped BigOperators

namespace Cert.BlockSums

/-- The `j`-th index of block `t`, among `n` blocks of `b` indices each, is below `n * b`. -/
theorem blk_lt {n b : ℕ} (t : Fin n) (j : Fin b) : t.val * b + j.val < n * b :=
  calc t.val * b + j.val < t.val * b + b := Nat.add_lt_add_left j.isLt _
    _ = (t.val + 1) * b := (Nat.succ_mul _ _).symm
    _ ≤ n * b := Nat.mul_le_mul_right b t.isLt

/-- a sum over n·b indices is the sum over n blocks of the sums over each block's b indices -/
theorem sum_blocks {M : Type*} [AddCommMonoid M] (n b : ℕ) (f : Fin (n * b) → M) :
    ∑ i : Fin (n * b), f i = ∑ t : Fin n, ∑ j : Fin b, f ⟨t.val * b + j.val, blk_lt t j⟩ := by
  rw [← Equiv.sum_comp (finProdFinEquiv (m := n) (n := b)) f, Fintype.sum_prod_type]
  refine Finset.sum_congr rfl fun t _ => Finset.sum_congr rfl fun j _ => ?_
  refine congrArg f (Fin.ext ?_)
  show j.val + b * t.val = t.val * b + j.val
  rw [Nat.mul_comm, Nat.add_comm]

/-- 4096 indices are 8 blocks of 512. -/
theorem sum_blocks_4096 {M : Type*} [AddCommMonoid M] (f : Fin 4096 → M) :
    ∑ i : Fin 4096, f i = ∑ t : Fin 8, ∑ j : Fin 512, f ⟨t.val * 512 + j.val, by
      have := t.isLt; have := j.isLt; omega⟩ :=
  sum_blocks 8 512 f

/-- 16384 indices are 16 blocks of 1024. -/
theorem sum_blocks_16384 {M : Type*} [AddCommMonoid M] (f : Fin 16384 → M) :
    ∑ k : Fin 16384, f k = ∑ t : Fin 16, ∑ j : Fin 1024, f ⟨t.val * 1024 + j.val, by
      have := t.isLt; have := j.isLt; omega⟩ :=
  sum_blocks 16 1024 f

/-- an accumulator that starts at zero-plus-first-block and adds one block per step holds the sum of the blocks so far -/
theorem acc_eq_sum {M : Type*} [AddCommMonoid M] (p : ℕ → M) (acc : ℕ → M) (h0 : acc 0 = 0 + p 0)
    (hs : ∀ n, acc (n + 1) = acc n + p (n + 1)) (n : ℕ) :
    acc n = ∑ k ∈ Finset.range (n + 1), p k := by
  induction n with
  | zero => rw [h0, zero_add, Finset.sum_range_one]
  | succ n ih => rw [Finset.sum_range_succ _ (n + 1), hs, ih]

/-- after the last step the accumulator holds the sum of all the blocks -/
theorem acc_last {M : Type*} [AddCommMonoid M] (N : ℕ) (p : ℕ → M) (acc : ℕ → M) (h0 : acc 0 = 0 + p 0)
    (hs : ∀ n, acc (n + 1) = acc n + p (n + 1)) :
    acc N = ∑ t : Fin (N + 1), p t.val := by
  rw [acc_eq_sum p acc h0 hs N, Finset.sum_range]

end Cert.BlockSums
-- ==== Proof.Algebra.lean ====
/-
  The two arrangements of the loss agree over the extended reals.

  Write `E i`, `B i` for box `i`'s EIoU and cross-entropy terms, `c` for the weight and `n` for the count. The
  tiled arrangement is `(Σ_t (Σ_d E (t,d) + c · Σ_d B (t,d))) / n`; the plain one is
  `c · ((0 + Σ_i B i) / n) + (0 + Σ_i E i) / n`. The terms `E i`, `B i` are arbitrary extended reals, infinite ones
  included, so only laws that hold on all of `EReal` are used:

  * addition is a commutative monoid, so sums split (`Σ (f + g) = Σ f + Σ g`) and regroup (a sum over 256 · 16384
    indices is the sum over the 256 blocks of the sums over each block's 16384 indices);
  * multiplication is a commutative monoid;
  * multiplication by a constant `k` with `0 ≤ k < ⊤` distributes over addition, on either side. (For a general
    factor this fails: `⊤ · (1 + (-1)) = 0` while `⊤ · 1 + ⊤ · (-1) = ⊤ + ⊥ = ⊥`.)

  Both constants qualify: `c = 13421773 / 2^26` and the reciprocal `1 / n = 1 / 4194304` are nonnegative reals, and
  dividing by the nonzero real `n` is multiplying by `1 / n`. So, with `r = 1 / n`,

    tiled = (Σ_t Σ_d E + Σ_t c · Σ_d B) · r = (Σ_i E i + c · Σ_i B i) · r
          = (Σ_i E i) · r + c · ((Σ_i B i) · r) = plain.
-/
import proofs.«121938_j10067403341971_2_alg».proof.Proof.Spec
import proofs.«121938_j10067403341971_2_alg».proof.Proof.LibBlockSums
import Idealize.ShloMosaic.PureOps.Ideal
import Mathlib.Data.EReal.Operations

open scoped BigOperators

noncomputable section

namespace Cert.Algebra

open Idealize.ShloMosaic Cert.Spec

/-! ### The three constants as reals -/

/-- The word `0x00000000` (sign 0, exponent field 0, fraction 0) denotes `0`. -/
theorem zero_eq : zero = 0 := by
  simp [Ideal.ofBits, Ideal.ieee]

/-- The word `0x4A800000` has sign 0, exponent field 149 and fraction 0: it denotes `2^(149 - 127) = 4194304`. -/
theorem count_eq : count = ((4194304 : ℝ) : EReal) := by
  simp [Ideal.ofBits, Ideal.ieee, -EReal.coe_mul]; norm_num

/-- The word `0x3E4CCCCD` has sign 0, exponent field 124 and fraction 5033165: it denotes
    `(2^23 + 5033165) · 2^(124 - 127 - 23) = 13421773 / 2^26`. -/
theorem coef_eq : coef = ((13421773 / 67108864 : ℝ) : EReal) := by
  simp [Ideal.ofBits, Ideal.ieee, -EReal.coe_mul]; norm_num

/-- The weight is a nonnegative real, -/
theorem coef_nonneg : (0 : EReal) ≤ coef := by
  rw [coef_eq]; exact EReal.coe_nonneg.mpr (by norm_num)

/-- hence not `⊤`. -/
theorem coef_ne_top : coef ≠ ⊤ := by
  rw [coef_eq]; exact EReal.coe_ne_top _

/-- Dividing by the count is multiplying by the real `1 / 4194304`, at the infinities too. -/
theorem div_count (x : EReal) : Ideal.div x count = x * ((1 / 4194304 : ℝ) : EReal) := by
  rw [count_eq]; exact Ideal.div_coe (by norm_num) x

/-- That reciprocal is a nonnegative real. -/
theorem rcp_nonneg : (0 : EReal) ≤ ((1 / 4194304 : ℝ) : EReal) :=
  EReal.coe_nonneg.mpr (by norm_num)

/-! ### Two laws of sums of extended reals -/

/-- A constant `c` with `0 ≤ c < ⊤` moves into a finite sum: `c · Σ f = Σ c · f`, whatever the terms are. By
    induction on the index set: `c · 0 = 0`, and `c · (f a + Σ f) = c · f a + c · Σ f` is distributivity for
    such a `c`. -/
theorem mul_sum_of_nonneg {ι : Type*} (s : Finset ι) (f : ι → EReal) {c : EReal} (h0 : 0 ≤ c) (ht : c ≠ ⊤) :
    c * ∑ i ∈ s, f i = ∑ i ∈ s, c * f i := by
  classical
  induction s using Finset.induction_on with
  | empty => rw [Finset.sum_empty, Finset.sum_empty, mul_zero]
  | insert a s ha ih =>
    rw [Finset.sum_insert ha, Finset.sum_insert ha, EReal.left_distrib_of_nonneg_of_ne_top h0 ht, ih]

/-- The 256 tiles of 16384 boxes are all the 4194304 = 256 · 16384 boxes, each once: summing over the tiles the
    sums within each tile is summing over all boxes. -/
theorem sum_tiles (f : Fin 4194304 → EReal) :
    ∑ t : Fin 256, ∑ d : Fin 16384, f (boxOf t d) = ∑ i : Fin 4194304, f i :=
  (Cert.BlockSums.sum_blocks (M := EReal) 256 16384 (fun i : Fin (256 * 16384) => f i)).symm

end Cert.Algebra

/-! ### The two arrangements agree -/

namespace Cert.Spec

open Idealize.ShloMosaic Cert.Algebra

/-- With `r = 1 / 4194304`: the tiled loss is `(Σ_t (Σ_d E + c · Σ_d B)) · r`. Split the outer sum, move `c` out of
    it, regroup both double sums into sums over all boxes, and distribute `r`:
    `(Σ E + c · Σ B) · r = (Σ E) · r + c · ((Σ B) · r)`, which is the plain loss with its two `0 +` dropped and its
    summands swapped. -/
theorem loss_eq (P T : Boxes) : lossTiled P T = lossPlain P T := by
  unfold lossTiled lossPlain tileTerm
  rw [div_count, div_count, div_count, zero_eq, zero_add, zero_add, Finset.sum_add_distrib,
    ← mul_sum_of_nonneg Finset.univ (fun t : Fin 256 => ∑ d : Fin 16384, boxB P T (boxOf t d)) coef_nonneg coef_ne_top,
    sum_tiles (boxE P T), sum_tiles (boxB P T),
    EReal.right_distrib_of_nonneg_of_ne_top rcp_nonneg (EReal.coe_ne_top _), mul_assoc, add_comm]

end Cert.Spec

end
-- ==== Proof.KernelRun.lean ====
/-
  The kernel program's run, read back, for any float instance. The output window is one element; only the last
  grid point writes it back, so the one-element result array ends holding what the last point left in its output
  block. After the kernel the program reshapes that element to a scalar and divides it by the literal count.
  So the program's result is that quotient, and the two argument arrays end as they began.
-/
import proofs.«121938_j10067403341971_2_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelRun

open Cert.KernelIdeal Cert.KernelIdeal.Gen

variable {F : FTy → Type} [FloatOps F]
variable (m : (ℓ : Loc nD τ sig) → Buf (Elt F) ℓ) (ρ : Dev nD → PrngReg)

theorem lt255 : 255 < cfg0.N := by rw [show cfg0.N = 256 from N_0]; decide

/-- What the last point (number 255) leaves in the output block: the contents of the one-element result array. -/
def lastOut (c : Dev nD) : Buf (Elt F) ((c : Thread nD τ).loc main_v2) := (outsAt0 m c 255 lt255).1

/-- The output block after a point numbered 255 is that. -/
theorem out_at (c : Dev nD) (n : ℕ) (hn : n < cfg0.N) (e : n = 255) : (outsAt0 m c n hn).1 = lastOut m c := by
  subst e
  unfold lastOut
  exact congrArg (fun h => (outsAt0 m c 255 h).1) (Subsingleton.elim hn lt255)

/-- The one-element shape has one index. -/
instance : Subsingleton S1x1.Idx :=
  ⟨fun a b => funext fun d => by
    match d with
    | ⟨0, _⟩ => exact Subsingleton.elim (α := Fin 1) _ _
    | ⟨1, _⟩ => exact Subsingleton.elim (α := Fin 1) _ _⟩

/-- The output window's block never moves: it is block (0, 0) at every point. -/
theorem idx_facts2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem hz' (t : Fin cfg0.N) : (fun a => win0_2.index t a * main_v2.ty.shape.size a) = fun _ => 0 :=
  funext fun a => by
    match a with
    | ⟨0, _⟩ => show win0_2.index t 0 * 1 = 0; rw [(idx_facts2 t).1]
    | ⟨1, _⟩ => show win0_2.index t 1 * 1 = 0; rw [(idx_facts2 t).2]

/-- The one write-back, at the last point, writes the output block, which is the whole one-element array. -/
theorem flushed_eq (c : Dev nD) (t : Fin cfg0.N) (hf : (cfg0.win 2).flush t = true) :
    (dats m 0 c).flushed 2 t = ((cfg0.win 2).blk t).view.read (Elt F) (lastOut m c) := by
  have hN : cfg0.N = 256 := N_0
  have h255 : t.val = 255 := by have := (flush0_2 t).mp hf; have := t.isLt; omega
  show (cfg0.win 2).cut (grid0.coords t) ((dats m 0 c).after 2 t) = _
  rw [after0_2, out_at m c t.val t.isLt h255]
  generalize lastOut m c = G
  funext y
  rw [View.read_apply]
  exact congrArg G (@Subsingleton.elim S1x1.Idx inferInstance _ _)

/-- So the result array ends holding what the last point left. -/
theorem final_o (c : Dev nD) : (dats m 0 c).arrAt 2 cfg0.N = lastOut m c :=
  (dats m 0 c).arrAt_eq_of_cover 2 (lastOut m c) (flushed_eq m c) fun i =>
    ⟨⟨255, lt255⟩, (flush0_2 ⟨255, lt255⟩).mpr rfl, by
      show i ∈ ((View.whole main_v2).slice (win0_2.rect ⟨255, lt255⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index ⟨255, lt255⟩ 0 * win0_2.size 0 ≤ (i 0 : Nat) ∧ (i 0 : Nat) < win0_2.index ⟨255, lt255⟩ 0 * win0_2.size 0 + win0_2.xsize (grid0.coords ⟨255, lt255⟩) 0
        rw [(idx_facts2 ⟨255, lt255⟩).1, show win0_2.xsize (grid0.coords ⟨255, lt255⟩) 0 = 1 from by decide +kernel]; omega
      | ⟨1, _⟩ =>
        show win0_2.index ⟨255, lt255⟩ 1 * win0_2.size 1 ≤ (i 1 : Nat) ∧ (i 1 : Nat) < win0_2.index ⟨255, lt255⟩ 1 * win0_2.size 1 + win0_2.xsize (grid0.coords ⟨255, lt255⟩) 1
        rw [(idx_facts2 ⟨255, lt255⟩).2, show win0_2.xsize (grid0.coords ⟨255, lt255⟩) 1 = 1 from by decide +kernel]; omega⟩

/-- The program's result as a function of the one-element array the kernel leaves: reshaped to a scalar and
    divided by the literal count. -/
def tail (x : (⟨S1x1, .f32⟩ : BufTy).Contents (Elt F)) : (⟨S_, .f32⟩ : BufTy).Contents (Elt F) :=
  Host.divf (shapeCast S_ x shapeCasts_S1x1_S_) (constant (F := F) S_ .f32 0x4A800000#32)

/-- The lines after the kernel compute `tail` of the result array. -/
theorem tail_eq (c : Dev nD) :
    Pipeline.afterTail₀ cfgs (dats m) 0 (V0 m) [hostOps1] c main_v4 = tail (lastOut m c) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.tc.devRef main_v2)
      = lastOut m c :=
    (Pipeline.withArrays_arr spec0 launch0.win.arr_inj c _ _ 2).trans (final_o m c)
  rw [e]
  generalize lastOut m c = G
  rfl

/-- The run, read: the result buffer at `tail` of what the last point left, the two arguments unchanged. -/
theorem run : θ_run defs (onTc (τ := τ) (main (F := F))) ⟨m, fun _ => 0, ρ⟩ fun r => ∀ c : Dev nD,
      r.2.mem ((c.tc : Thread nD τ).loc main_v4) = tail (lastOut m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v4 (Pipeline.mem_restRefs_of main_v4 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelRun

end
-- ==== Proof.KernelAcc.lean ====
/-
  What one grid point does to the running total, for any float instance. The kernel keeps a one-element
  accumulator across its 256 grid points: it clears it at the first point, adds the tile's contribution at every
  point, and copies it to the output block at the last point. Here each of the three control cases' found
  stores is read back as ONE function `step` of the two input tiles and of the accumulator's previous contents:
  the first point applies it to the cleared accumulator, every later point to what the point before left, and
  the last point's output block holds the same value as the accumulator.
-/
import proofs.«121938_j10067403341971_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelAcc

open Cert.KernelIdeal Cert.KernelIdeal.Gen

variable {F : FTy → Type} [FloatOps F]

theorem hz : (![0, 0] : Fin 2 → Nat) = fun _ => 0 := funext fun a => by fin_cases a <;> rfl

/-- One point's update of the accumulator: the previous contents plus the tile's EIoU sum plus the weighted
    cross-entropy sum, as the body's payloads compute it from the two tiles `x0` (predictions) and `x1` (targets). -/
def step (x0 x1 : Vec F S5x16384 .f32) (acc : Vec F S1x1 .f32) : Vec F S1x1 .f32 :=
  k0_pay1 (k0_pay5 x0 x1)
    (k0_pay23 (k0_pay12 x1) (k0_pay13 x1) (k0_pay14 x1) (k0_pay15 x1) (k0_pay16 x0) (k0_pay17 x1) (k0_pay18 x0)
      (k0_pay19 x0) (k0_pay20 x0) (k0_pay21 x0) (k0_pay22 x0 x1) (Scalar.ofBits .f32 0x00000000#32))
    acc

/-- A middle point (neither first nor last) leaves in the accumulator one `step` over what it found there. -/
theorem sout_B (c : Dev nD) (i : grid0.Coords) (a1 : Memref sig .tc .vmem S5x16384 .f32) (h1 : a1.IsWhole)
    (a2 : Memref sig .tc .vmem S5x16384 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S5x16384 .f32) (xs0 : Vec F S1x1 .f32) :
    sout0_B_0 c i a1 h1 a2 h2 a3 h3 a4 h4 hc0 hc1 x0 x1 xs0 = step x0 x1 xs0 := by
  unfold sout0_B_0
  rw [View.read_writes_eq_canon _ _ _ (scover0_B_0 c i a1 h1 a2 h2 a3 h3 a4 h4 hc0 hc1 x0 x1 xs0)]
  unfold kernelRun0_B
  dsimp only
  sl_unfold_words
  rw [View.canon_unit_zero hz]
  simp only [View.readAt_eq_ld, h1.read_unread, h2.read_unread, h4.read_unread, View.ld_unit_zero (S := S1x1) hz,
    View.ld_unit_zero (S := S5x16384) hz]
  rfl

/-- The last point leaves the same in the accumulator … -/
theorem sout_C (c : Dev nD) (i : grid0.Coords) (a1 : Memref sig .tc .vmem S5x16384 .f32) (h1 : a1.IsWhole)
    (a2 : Memref sig .tc .vmem S5x16384 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S5x16384 .f32) (xs0 : Vec F S1x1 .f32) :
    sout0_C_0 c i a1 h1 a2 h2 a3 h3 a4 h4 hc0 hc1 x0 x1 xs0 = step x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz]
  simp only [View.readAt_eq_ld, h1.read_unread, h2.read_unread, h4.read_unread, View.ld_unit_zero (S := S1x1) hz,
    View.ld_unit_zero (S := S5x16384) hz]
  rfl

/-- … and copies that value into the output block. -/
theorem out_C (c : Dev nD) (i : grid0.Coords) (a1 : Memref sig .tc .vmem S5x16384 .f32) (h1 : a1.IsWhole)
    (a2 : Memref sig .tc .vmem S5x16384 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S5x16384 .f32) (xs0 : Vec F S1x1 .f32) :
    out0_C_2 c i a1 h1 a2 h2 a3 h3 a4 h4 hc0 hc1 x0 x1 xs0 = step x0 x1 xs0 := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz, View.readCov_unit_zero (S := S1x1) _ hz]
  simp only [View.readAt_eq_ld, h1.read_unread, h2.read_unread, h4.read_unread, View.ld_unit_zero (S := S1x1) hz,
    View.ld_unit_zero (S := S5x16384) hz]
  rfl

/-- The first point clears the accumulator and then does one `step` over the cleared contents. -/
theorem sout_A (c : Dev nD) (i : grid0.Coords) (a1 : Memref sig .tc .vmem S5x16384 .f32) (h1 : a1.IsWhole)
    (a2 : Memref sig .tc .vmem S5x16384 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S5x16384 .f32) :
    sout0_A_0 c i a1 h1 a2 h2 a3 h3 a4 h4 hc0 hc1 x0 x1 = step x0 x1 (k0_pay2 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S5x16384) hz]
  rfl

end Cert.KernelAcc

end
-- ==== Proof.KernelBlocks.lean ====
/-
  The tiles the kernel sees. Before the kernel runs, each argument array [N, 5] is transposed to [5, N]; the
  kernel's window `t` is columns 16384·t … 16384·t + 16383 of that, all five rows. So entry (r, d) of tile `t`
  is number `r` of box 16384·t + d of the argument array. For any float instance.
-/
import proofs.«121938_j10067403341971_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelBlocks

open Cert.KernelIdeal Cert.KernelIdeal.Gen

variable {F : FTy → Type} [FloatOps F]
variable (m : (ℓ : Loc nD τ sig) → Buf (Elt F) ℓ)

/-- When the kernel is launched, its first operand holds the transpose of the first argument, -/
theorem V_v0 (c : Dev nD) : V m c main_v0
    = transpose S5x4194304 [1, 0] (m ((c : Thread nD τ).loc main_arg0)) transposes_S4194304x5_S5x4194304_1_0 := by
  show StableHlo.after hostOps0 (fun b => m (c, b)) (Proc.devRef .tc main_v0) = _
  after_results

/-- and its second operand the transpose of the second. -/
theorem V_v1 (c : Dev nD) : V m c main_v1
    = transpose S5x4194304 [1, 0] (m ((c : Thread nD τ).loc main_arg1)) transposes_S4194304x5_S5x4194304_1_0 := by
  show StableHlo.after hostOps0 (fun b => m (c, b)) (Proc.devRef .tc main_v1) = _
  after_results

/-- Window 0's block at point `t` is block (0, t): all rows, the `t`-th run of columns. -/
theorem idx_facts0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)

/-- Window 1's likewise. -/
theorem idx_facts1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)

/-- Entry (r, d) of the predictions' tile `t` is number `r` of box `k = 16384·t + d`. -/
theorem iblk0_apply (c : Dev nD) (t : Fin cfg0.N) (r : Fin 5) (d : Fin 16384) (k : Fin 4194304)
    (hk : k.val = t.val * 16384 + d.val) :
    (iblk m c 0 t : Vec F S5x16384 .f32) (ix2 r d) = m ((c : Thread nD τ).loc main_arg0) (ix2 k r) := by
  unfold iblk
  rw [View.read_apply]
  show V m c main_v0 _ = _
  rw [V_v0]
  refine transpose_apply [1, 0] _ transposes_S4194304x5_S5x4194304_1_0 _ (ix2 k r) (fun b => ?_)
  match b with
  | ⟨0, _⟩ =>
    show r.val = win0_0.index t 0 * 5 + 1 * r.val
    rw [(idx_facts0 t).1]; omega
  | ⟨1, _⟩ =>
    show k.val = win0_0.index t 1 * 16384 + 1 * d.val
    rw [(idx_facts0 t).2, hk]; omega

/-- Entry (r, d) of the targets' tile `t` is number `r` of box `k = 16384·t + d`. -/
theorem iblk1_apply (c : Dev nD) (t : Fin cfg0.N) (r : Fin 5) (d : Fin 16384) (k : Fin 4194304)
    (hk : k.val = t.val * 16384 + d.val) :
    (iblk m c 1 t : Vec F S5x16384 .f32) (ix2 r d) = m ((c : Thread nD τ).loc main_arg1) (ix2 k r) := by
  unfold iblk
  rw [View.read_apply]
  show V m c main_v1 _ = _
  rw [V_v1]
  refine transpose_apply [1, 0] _ transposes_S4194304x5_S5x4194304_1_0 _ (ix2 k r) (fun b => ?_)
  match b with
  | ⟨0, _⟩ =>
    show r.val = win0_1.index t 0 * 5 + 1 * r.val
    rw [(idx_facts1 t).1]; omega
  | ⟨1, _⟩ =>
    show k.val = win0_1.index t 1 * 16384 + 1 * d.val
    rw [(idx_facts1 t).2, hk]; omega

end Cert.KernelBlocks

end
-- ==== Proof.LibLaneSum.lean ====
/-
  A float sum along ONE axis of a vector, read over the extended reals at an index given by coordinates: it is the
  finite sum over that axis's coordinate of the source at the index with the coordinate put back. Three forms:
  along the last axis of a matrix `[a, b]` (each row's sum), along the last axis of a rank-3 array `[a, c, b]`
  (each row's sum, slab by slab), and along the first axis of a matrix `[a, b]` (each column's sum). Each is the
  general one-axis law with the re-inserted index written by coordinates.
-/
import Idealize.ShloMosaic.PureOps.Ideal.Laws
import Idealize.ShloMosaic.Lib.ValueIdx

namespace Cert.LaneSum

open Idealize.ShloMosaic Idealize.ShloMosaic.ValueIdx

variable {φ : FTy}

/-- The sum of row `i` of a matrix: over the column coordinate. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ d : Fin b, src (ix2 i d) := by
  refine (Ideal.multiReduction_add_single src acc h hφ hacc (ix1 i)).trans ?_
  refine Finset.sum_congr rfl fun d _ => ?_
  exact congrArg src (funext fun ax => Fin.ext (by match ax with | ⟨0, _⟩ => rfl | ⟨1, _⟩ => rfl))

/-- The sum of row `(i, j)` of a rank-3 array: over the last coordinate. -/
theorem sum_last3 {a c b : ℕ} (src : FVec Ideal ⟨3, ![a, c, b]⟩ φ) (acc : BitVec φ.bits)
    (h : (⟨3, ![a, c, b]⟩ : Shape).Reduces [2] ⟨2, ![a, c]⟩) (hφ : FKind.Formats φ) (hacc : acc = FKind.add.neutral φ hφ)
    (i : Fin a) (j : Fin c) :
    multiReduction .add [2] ⟨2, ![a, c]⟩ src acc h hφ hacc (ix2 i j) = ∑ d : Fin b, src (ix3 i j d) := by
  refine (Ideal.multiReduction_add_single src acc h hφ hacc (ix2 i j)).trans ?_
  refine Finset.sum_congr rfl fun d _ => ?_
  exact congrArg src (funext fun ax => Fin.ext (by match ax with | ⟨0, _⟩ => rfl | ⟨1, _⟩ => rfl | ⟨2, _⟩ => rfl))

/-- The sum of column `j` of a matrix: over the row coordinate. -/
theorem sum_first2 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun ax => Fin.ext (by match ax with | ⟨0, _⟩ => rfl | ⟨1, _⟩ => rfl))

end Cert.LaneSum
-- ==== Proof.KernelPay.lean ====
/-
  The body's arithmetic read at an index, over the extended reals. The body works on two tiles of shape [5, 16384]:
  a column (a lane) is a box, row 0 of the first tile its logit and of the second its label, rows 1 to 4 the corners.
  Every value the body forms from them is a row slice, a pointwise operation, or a sum along the lanes, so at a lane `d`
  each is an expression in the ten numbers of column `d`. The results here:
    • the reset value is `0` (`pay2_apply`);
    • the cross-entropy row at lane `d` is `Spec.bce` of the logit and the label (`pay5_apply`) — the body writes
      `0 - |x|` where the specification writes `-|x|`, the same extended real;
    • the cell the second half of the body returns is the sum over the lanes of `Spec.eiou` of the squashed predicted
      corners and the target corners (`pay23_apply`);
    • the cell stored at the end is the old cell plus (that sum plus `coef` times the cross-entropy row's sum)
      (`pay1_apply`).
  No algebra is needed beyond `0 - a = -a`: the operations and their order are the specification's.
-/
import proofs.«121938_j10067403341971_2_alg».proof.Proof.Spec
import proofs.«121938_j10067403341971_2_alg».proof.Proof.LibLaneSum
import proofs.«121938_j10067403341971_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelPay

open Cert.KernelIdeal Cert.KernelIdeal.Gen Idealize.ShloMosaic Idealize.ShloMosaic.ValueIdx

/-- The reset value written at the first tile is the real number zero. -/
theorem pay2_apply : k0_pay2 (F := Ideal) (ix2 (0 : Fin 1) (0 : Fin 1)) = 0 := by
  unfold k0_pay2
  rw [shapeCast_self]
  exact Ideal.ofBits_zero_f32

/-- A block cast to its own shape is the block. -/
theorem pay3_eq (x : Vec Ideal S5x16384 .f32) : k0_pay3 (F := Ideal) x = x := shapeCast_self _ _
theorem pay4_eq (x : Vec Ideal S5x16384 .f32) : k0_pay4 (F := Ideal) x = x := shapeCast_self _ _

/-- Row 0 of a block, as the slice `[0:1, :]` reads it. -/
theorem row0_pay3 (x : Vec Ideal S5x16384 .f32) (d : Fin 16384) :
    extractStridedSlice S1x16384 ![0, 0] (k0_pay3 (F := Ideal) x) slices_S5x16384_o0_0_S1x16384 (ix2 (0 : Fin 1) d)
      = x (ix2 (0 : Fin 5) d) := by
  rw [pay3_eq]
  exact slice2_axis0_apply 0 x _ (0 : Fin 1) d (0 : Fin 5) rfl
theorem row0_pay4 (x : Vec Ideal S5x16384 .f32) (d : Fin 16384) :
    extractStridedSlice S1x16384 ![0, 0] (k0_pay4 (F := Ideal) x) slices_S5x16384_o0_0_S1x16384 (ix2 (0 : Fin 1) d)
      = x (ix2 (0 : Fin 5) d) := by
  rw [pay4_eq]
  exact slice2_axis0_apply 0 x _ (0 : Fin 1) d (0 : Fin 5) rfl

/-- The cross-entropy term as the kernel writes it: `0 - |a|` where the specification has `-|a|`. -/
def bceLane (a b : EReal) : EReal :=
  (max a Cert.Spec.zero - a * b) + Ideal.log1p (Ideal.exp (Cert.Spec.zero - max a (-a)))

theorem bceLane_eq (a b : EReal) : bceLane a b = Cert.Spec.bce a b := by
  unfold bceLane Cert.Spec.bce
  rw [show Cert.Spec.zero - max a (-a) = -(max a (-a)) by
    show Ideal.ofBits .f32 0x00000000#32 - _ = _
    rw [Ideal.ofBits_zero_f32, zero_sub]]

theorem pay5_apply (x0 x1 : Vec Ideal S5x16384 .f32) (d : Fin 16384) :
    k0_pay5 (F := Ideal) x0 x1 (ix2 (0 : Fin 1) d)
      = Cert.Spec.bce (x0 (ix2 (0 : Fin 5) d)) (x1 (ix2 (0 : Fin 5) d)) := by
  have e : k0_pay5 (F := Ideal) x0 x1 (ix2 (0 : Fin 1) d)
      = bceLane (extractStridedSlice S1x16384 ![0, 0] (k0_pay3 (F := Ideal) x0) slices_S5x16384_o0_0_S1x16384 (ix2 (0 : Fin 1) d))
          (extractStridedSlice S1x16384 ![0, 0] (k0_pay4 (F := Ideal) x1) slices_S5x16384_o0_0_S1x16384 (ix2 (0 : Fin 1) d)) := rfl
  rw [e, row0_pay3, row0_pay4, bceLane_eq]

/-- Rows 1 to 4 of the first block, squashed by the logistic function: row `r` of the slice `[1:5, :]` is row `r + 1`. -/
theorem pay6_apply (x : Vec Ideal S5x16384 .f32) (r : Fin 4) (r' : Fin 5) (h : r'.val = 1 + r.val) (d : Fin 16384) :
    k0_pay6 (F := Ideal) x (ix2 r d) = Ideal.logistic (x (ix2 r' d)) := by
  have e : k0_pay6 (F := Ideal) x (ix2 r d)
      = Ideal.logistic (extractStridedSlice S4x16384 ![1, 0] (k0_pay3 (F := Ideal) x) slices_S5x16384_o1_0_S4x16384 (ix2 r d)) := rfl
  rw [e, pay3_eq]
  exact congrArg Ideal.logistic (slice2_axis0_apply 1 x _ r d r' h)

/-- Rows 1 to 4 of the second block. -/
theorem pay7_apply (x : Vec Ideal S5x16384 .f32) (r : Fin 4) (r' : Fin 5) (h : r'.val = 1 + r.val) (d : Fin 16384) :
    k0_pay7 (F := Ideal) x (ix2 r d) = x (ix2 r' d) := by
  unfold k0_pay7
  rw [pay4_eq]
  exact slice2_axis0_apply 1 x _ r d r' h

/-! The four predicted corners at a lane: the logistic function of rows 1, 2, 3, 4 of the first block. -/
theorem pay8_apply (x : Vec Ideal S5x16384 .f32) (d : Fin 16384) :
    k0_pay8 (F := Ideal) x (ix2 (0 : Fin 1) d) = Ideal.logistic (x (ix2 (1 : Fin 5) d)) := by
  unfold k0_pay8
  exact (slice2_axis0_apply 0 (k0_pay6 (F := Ideal) x) slices_S4x16384_o0_0_S1x16384 (0 : Fin 1) d (0 : Fin 4) rfl).trans
    (pay6_apply x 0 1 rfl d)
theorem pay9_apply (x : Vec Ideal S5x16384 .f32) (d : Fin 16384) :
    k0_pay9 (F := Ideal) x (ix2 (0 : Fin 1) d) = Ideal.logistic (x (ix2 (2 : Fin 5) d)) := by
  unfold k0_pay9
  exact (slice2_axis0_apply 1 (k0_pay6 (F := Ideal) x) slices_S4x16384_o1_0_S1x16384 (0 : Fin 1) d (1 : Fin 4) rfl).trans
    (pay6_apply x 1 2 rfl d)
theorem pay10_apply (x : Vec Ideal S5x16384 .f32) (d : Fin 16384) :
    k0_pay10 (F := Ideal) x (ix2 (0 : Fin 1) d) = Ideal.logistic (x (ix2 (3 : Fin 5) d)) := by
  unfold k0_pay10
  exact (slice2_axis0_apply 2 (k0_pay6 (F := Ideal) x) slices_S4x16384_o2_0_S1x16384 (0 : Fin 1) d (2 : Fin 4) rfl).trans
    (pay6_apply x 2 3 rfl d)
theorem pay11_apply (x : Vec Ideal S5x16384 .f32) (d : Fin 16384) :
    k0_pay11 (F := Ideal) x (ix2 (0 : Fin 1) d) = Ideal.logistic (x (ix2 (4 : Fin 5) d)) := by
  unfold k0_pay11
  exact (slice2_axis0_apply 3 (k0_pay6 (F := Ideal) x) slices_S4x16384_o3_0_S1x16384 (0 : Fin 1) d (3 : Fin 4) rfl).trans
    (pay6_apply x 3 4 rfl d)

/-! The four target corners at a lane: rows 1, 2, 3, 4 of the second block. -/
theorem pay12_apply (x : Vec Ideal S5x16384 .f32) (d : Fin 16384) :
    k0_pay12 (F := Ideal) x (ix2 (0 : Fin 1) d) = x (ix2 (1 : Fin 5) d) := by
  unfold k0_pay12
  exact (slice2_axis0_apply 0 (k0_pay7 (F := Ideal) x) slices_S4x16384_o0_0_S1x16384 (0 : Fin 1) d (0 : Fin 4) rfl).trans
    (pay7_apply x 0 1 rfl d)
theorem pay13_apply (x : Vec Ideal S5x16384 .f32) (d : Fin 16384) :
    k0_pay13 (F := Ideal) x (ix2 (0 : Fin 1) d) = x (ix2 (2 : Fin 5) d) := by
  unfold k0_pay13
  exact (slice2_axis0_apply 1 (k0_pay7 (F := Ideal) x) slices_S4x16384_o1_0_S1x16384 (0 : Fin 1) d (1 : Fin 4) rfl).trans
    (pay7_apply x 1 2 rfl d)
theorem pay14_apply (x : Vec Ideal S5x16384 .f32) (d : Fin 16384) :
    k0_pay14 (F := Ideal) x (ix2 (0 : Fin 1) d) = x (ix2 (3 : Fin 5) d) := by
  unfold k0_pay14
  exact (slice2_axis0_apply 2 (k0_pay7 (F := Ideal) x) slices_S4x16384_o2_0_S1x16384 (0 : Fin 1) d (2 : Fin 4) rfl).trans
    (pay7_apply x 2 3 rfl d)
theorem pay15_apply (x : Vec Ideal S5x16384 .f32) (d : Fin 16384) :
    k0_pay15 (F := Ideal) x (ix2 (0 : Fin 1) d) = x (ix2 (4 : Fin 5) d) := by
  unfold k0_pay15
  exact (slice2_axis0_apply 3 (k0_pay7 (F := Ideal) x) slices_S4x16384_o3_0_S1x16384 (0 : Fin 1) d (3 : Fin 4) rfl).trans
    (pay7_apply x 3 4 rfl d)

/-! The seven lane values the first part hands on, in terms of the corners. Write `p0 … p3` for the squashed
    predicted corners and `t0 … t3` for the target corners of the lane. -/

/-- The predicted box's area, `|p2 - p0| · |p3 - p1|`. -/
theorem pay16_apply (x : Vec Ideal S5x16384 .f32) (d : Fin 16384) :
    k0_pay16 (F := Ideal) x (ix2 (0 : Fin 1) d)
      = max (Ideal.logistic (x (ix2 (3 : Fin 5) d)) - Ideal.logistic (x (ix2 (1 : Fin 5) d))) (-(Ideal.logistic (x (ix2 (3 : Fin 5) d)) - Ideal.logistic (x (ix2 (1 : Fin 5) d))))
        * max (Ideal.logistic (x (ix2 (4 : Fin 5) d)) - Ideal.logistic (x (ix2 (2 : Fin 5) d))) (-(Ideal.logistic (x (ix2 (4 : Fin 5) d)) - Ideal.logistic (x (ix2 (2 : Fin 5) d)))) := by
  have e : k0_pay16 (F := Ideal) x (ix2 (0 : Fin 1) d)
      = max (k0_pay10 (F := Ideal) x (ix2 (0 : Fin 1) d) - k0_pay8 (F := Ideal) x (ix2 (0 : Fin 1) d)) (-(k0_pay10 (F := Ideal) x (ix2 (0 : Fin 1) d) - k0_pay8 (F := Ideal) x (ix2 (0 : Fin 1) d)))
        * max (k0_pay11 (F := Ideal) x (ix2 (0 : Fin 1) d) - k0_pay9 (F := Ideal) x (ix2 (0 : Fin 1) d)) (-(k0_pay11 (F := Ideal) x (ix2 (0 : Fin 1) d) - k0_pay9 (F := Ideal) x (ix2 (0 : Fin 1) d))) := rfl
  rw [e, pay8_apply, pay9_apply, pay10_apply, pay11_apply]

/-- The target box's area, `(t2 - t0) · (t3 - t1)`. -/
theorem pay17_apply (x : Vec Ideal S5x16384 .f32) (d : Fin 16384) :
    k0_pay17 (F := Ideal) x (ix2 (0 : Fin 1) d) = (x (ix2 (3 : Fin 5) d) - x (ix2 (1 : Fin 5) d)) * (x (ix2 (4 : Fin 5) d) - x (ix2 (2 : Fin 5) d)) := by
  have e : k0_pay17 (F := Ideal) x (ix2 (0 : Fin 1) d)
      = (k0_pay14 (F := Ideal) x (ix2 (0 : Fin 1) d) - k0_pay12 (F := Ideal) x (ix2 (0 : Fin 1) d)) * (k0_pay15 (F := Ideal) x (ix2 (0 : Fin 1) d) - k0_pay13 (F := Ideal) x (ix2 (0 : Fin 1) d)) := rfl
  rw [e, pay12_apply, pay13_apply, pay14_apply, pay15_apply]

/-- The predicted corners put in order: `min p2 p0`, `max p2 p0`, `min p1 p3`, `max p1 p3`. -/
theorem pay18_apply (x : Vec Ideal S5x16384 .f32) (d : Fin 16384) :
    k0_pay18 (F := Ideal) x (ix2 (0 : Fin 1) d) = min (Ideal.logistic (x (ix2 (3 : Fin 5) d))) (Ideal.logistic (x (ix2 (1 : Fin 5) d))) := by
  have e : k0_pay18 (F := Ideal) x (ix2 (0 : Fin 1) d) = min (k0_pay10 (F := Ideal) x (ix2 (0 : Fin 1) d)) (k0_pay8 (F := Ideal) x (ix2 (0 : Fin 1) d)) := rfl
  rw [e, pay8_apply, pay10_apply]
theorem pay19_apply (x : Vec Ideal S5x16384 .f32) (d : Fin 16384) :
    k0_pay19 (F := Ideal) x (ix2 (0 : Fin 1) d) = max (Ideal.logistic (x (ix2 (3 : Fin 5) d))) (Ideal.logistic (x (ix2 (1 : Fin 5) d))) := by
  have e : k0_pay19 (F := Ideal) x (ix2 (0 : Fin 1) d) = max (k0_pay10 (F := Ideal) x (ix2 (0 : Fin 1) d)) (k0_pay8 (F := Ideal) x (ix2 (0 : Fin 1) d)) := rfl
  rw [e, pay8_apply, pay10_apply]
theorem pay20_apply (x : Vec Ideal S5x16384 .f32) (d : Fin 16384) :
    k0_pay20 (F := Ideal) x (ix2 (0 : Fin 1) d) = min (Ideal.logistic (x (ix2 (2 : Fin 5) d))) (Ideal.logistic (x (ix2 (4 : Fin 5) d))) := by
  have e : k0_pay20 (F := Ideal) x (ix2 (0 : Fin 1) d) = min (k0_pay9 (F := Ideal) x (ix2 (0 : Fin 1) d)) (k0_pay11 (F := Ideal) x (ix2 (0 : Fin 1) d)) := rfl
  rw [e, pay9_apply, pay11_apply]
theorem pay21_apply (x : Vec Ideal S5x16384 .f32) (d : Fin 16384) :
    k0_pay21 (F := Ideal) x (ix2 (0 : Fin 1) d) = max (Ideal.logistic (x (ix2 (2 : Fin 5) d))) (Ideal.logistic (x (ix2 (4 : Fin 5) d))) := by
  have e : k0_pay21 (F := Ideal) x (ix2 (0 : Fin 1) d) = max (k0_pay9 (F := Ideal) x (ix2 (0 : Fin 1) d)) (k0_pay11 (F := Ideal) x (ix2 (0 : Fin 1) d)) := rfl
  rw [e, pay9_apply, pay11_apply]

/-- The product of the intersection's two sides, before the clamp. -/
theorem pay22_apply (x y : Vec Ideal S5x16384 .f32) (d : Fin 16384) :
    k0_pay22 (F := Ideal) x y (ix2 (0 : Fin 1) d)
      = (min (k0_pay19 (F := Ideal) x (ix2 (0 : Fin 1) d)) (k0_pay14 (F := Ideal) y (ix2 (0 : Fin 1) d)) - max (k0_pay18 (F := Ideal) x (ix2 (0 : Fin 1) d)) (k0_pay12 (F := Ideal) y (ix2 (0 : Fin 1) d)))
        * (min (k0_pay21 (F := Ideal) x (ix2 (0 : Fin 1) d)) (k0_pay15 (F := Ideal) y (ix2 (0 : Fin 1) d)) - max (k0_pay20 (F := Ideal) x (ix2 (0 : Fin 1) d)) (k0_pay13 (F := Ideal) y (ix2 (0 : Fin 1) d))) := rfl

/-- What the second part computes at one lane from the twelve values it receives: the target corners `t0 … t3`, the
    two areas, the ordered predicted corners `xlo xhi ylo yhi`, the product `prod` of the intersection's sides and the
    clamp's threshold `c`. It is the specification's term from the line `ov` on. -/
def eiouLane (t0 t1 t2 t3 parea tarea xlo xhi ylo yhi prod c : EReal) : EReal :=
  let ov := Scalar.select (Ideal.cmp .olt prod c) Cert.Spec.zero prod
  let cw := max xhi t2 - min xlo t0
  let ch := max yhi t3 - min ylo t1
  let iou := Ideal.div ov (tarea + parea - ov)
  let dx := (xhi + xlo) * Cert.Spec.half - (t2 + t0) * Cert.Spec.half
  let dy := (yhi + ylo) * Cert.Spec.half - (t3 + t1) * Cert.Spec.half
  let centre := Ideal.div (dx * dx + dy * dy) (cw * cw + ch * ch)
  let dw := (xhi - xlo) - (t2 - t0)
  let width := Ideal.div (dw * dw) (cw * cw)
  let dh := (yhi - ylo) - (t3 - t1)
  let height := Ideal.div (dh * dh) ((t3 - t1) * (t3 - t1))
  Cert.Spec.one - (iou - (centre + width + height))

/-- The second part's result, the `[1, 1]` cell, is the sum over the lanes of that term: the cast from `[1]` reads the
    one row sum, the row sum is the sum over the lane coordinate, and at a lane every operation is pointwise. -/
theorem pay23_sum (v26 v27 v28 v29 v34 v37 v38 v39 v40 v41 v48 : FVec Ideal S1x16384 .f32) (c : Ideal .f32) :
    k0_pay23 (F := Ideal) v26 v27 v28 v29 v34 v37 v38 v39 v40 v41 v48 c (ix2 (0 : Fin 1) (0 : Fin 1))
      = ∑ d : Fin 16384, eiouLane (v26 (ix2 (0 : Fin 1) d)) (v27 (ix2 (0 : Fin 1) d)) (v28 (ix2 (0 : Fin 1) d)) (v29 (ix2 (0 : Fin 1) d)) (v34 (ix2 (0 : Fin 1) d)) (v37 (ix2 (0 : Fin 1) d)) (v38 (ix2 (0 : Fin 1) d)) (v39 (ix2 (0 : Fin 1) d)) (v40 (ix2 (0 : Fin 1) d)) (v41 (ix2 (0 : Fin 1) d)) (v48 (ix2 (0 : Fin 1) d)) c := by
  unfold k0_pay23
  refine (shapeCast_a_1a_apply _ shapeCasts_S1_S1x1 (0 : Fin 1) (0 : Fin 1)).trans ?_
  refine (Cert.LaneSum.sum_last2 _ _ _ _ _ (0 : Fin 1)).trans ?_
  exact Finset.sum_congr rfl fun d _ => rfl

/-- With the first part's values put in, a lane's term is the specification's EIoU term of the lane's corners. -/
theorem pay23_apply (x0 x1 : Vec Ideal S5x16384 .f32) :
    k0_pay23 (F := Ideal) (k0_pay12 x1) (k0_pay13 x1) (k0_pay14 x1) (k0_pay15 x1) (k0_pay16 x0) (k0_pay17 x1)
        (k0_pay18 x0) (k0_pay19 x0) (k0_pay20 x0) (k0_pay21 x0) (k0_pay22 x0 x1)
        (Scalar.ofBits .f32 0x00000000#32) (ix2 (0 : Fin 1) (0 : Fin 1))
      = ∑ d : Fin 16384, Cert.Spec.eiou (Ideal.logistic (x0 (ix2 (1 : Fin 5) d))) (Ideal.logistic (x0 (ix2 (2 : Fin 5) d)))
          (Ideal.logistic (x0 (ix2 (3 : Fin 5) d))) (Ideal.logistic (x0 (ix2 (4 : Fin 5) d)))
          (x1 (ix2 (1 : Fin 5) d)) (x1 (ix2 (2 : Fin 5) d)) (x1 (ix2 (3 : Fin 5) d)) (x1 (ix2 (4 : Fin 5) d)) := by
  refine (pay23_sum _ _ _ _ _ _ _ _ _ _ _ _).trans (Finset.sum_congr rfl fun d _ => ?_)
  rw [pay22_apply, pay12_apply, pay13_apply, pay14_apply, pay15_apply, pay16_apply, pay17_apply, pay18_apply,
    pay19_apply, pay20_apply, pay21_apply]
  rfl

/-- The accumulation step: the stored cell is the old cell plus (the EIoU sum plus `coef` times the cross-entropy
    lanes' sum). -/
theorem pay1_apply (v18 : FVec Ideal S1x16384 .f32) (v101 : FVec Ideal S1x1 .f32) (v107 : Vec Ideal S1x1 .f32) :
    k0_pay1 (F := Ideal) v18 v101 v107 (ix2 (0 : Fin 1) (0 : Fin 1))
      = v107 (ix2 (0 : Fin 1) (0 : Fin 1))
        + (v101 (ix2 (0 : Fin 1) (0 : Fin 1)) + Cert.Spec.coef * ∑ d : Fin 16384, v18 (ix2 (0 : Fin 1) d)) := by
  unfold k0_pay1
  rw [shapeCast_self]
  show v107 (ix2 (0 : Fin 1) (0 : Fin 1)) + (v101 (ix2 (0 : Fin 1) (0 : Fin 1)) + Cert.Spec.coef * _) = _
  refine congrArg (fun s => v107 (ix2 (0 : Fin 1) (0 : Fin 1)) + (v101 (ix2 (0 : Fin 1) (0 : Fin 1)) + Cert.Spec.coef * s)) ?_
  refine (shapeCast_a_1a_apply _ shapeCasts_S1_S1x1 (0 : Fin 1) (0 : Fin 1)).trans ?_
  exact Cert.LaneSum.sum_last2 _ _ _ _ _ (0 : Fin 1)

end Cert.KernelPay

end
-- ==== Proof.KernelTotal.lean ====
/-
  The kernel's running total over the extended reals. One point's update adds the tile's term
  `Σ_d eiou(box) + coef · Σ_d bce(box)` (the body's payloads read lane by lane) to the accumulator; tile `t`'s
  lanes are boxes 16384·t … 16384·t + 16383 of the argument arrays. By induction on the point the accumulator after
  point `n` is the sum of the terms of tiles 0 … n (the first point starts from the cleared accumulator, 0), so the
  output block the last point writes is the sum over all 256 tiles.
-/
import proofs.«121938_j10067403341971_2_alg».proof.Proof.Spec
import proofs.«121938_j10067403341971_2_alg».proof.Proof.KernelAcc
import proofs.«121938_j10067403341971_2_alg».proof.Proof.KernelBlocks
import proofs.«121938_j10067403341971_2_alg».proof.Proof.KernelPay

noncomputable section

open Idealize.ShloMosaic Idealize.ShloMosaic.TcCoe Idealize.SL.Sem Idealize.ShloMosaic.ValueIdx
open Idealize.ShloMosaic.Pipeline (Dat)

namespace Cert.KernelTotal

open Cert.KernelIdeal Cert.KernelIdeal.Gen Cert.KernelAcc Cert.KernelBlocks

variable (m : (ℓ : Loc nD τ sig) → Buf (Elt Ideal) ℓ)

/-- The two argument arrays on core `c`. -/
abbrev preds (c : Dev nD) : Cert.Spec.Boxes := m ((c : Thread nD τ).loc main_arg0)
abbrev targs (c : Dev nD) : Cert.Spec.Boxes := m ((c : Thread nD τ).loc main_arg1)

/-- A grid point as a tile number. -/
def tileOf (t : Fin cfg0.N) : Fin 256 := ⟨t.val, lt_of_lt_of_eq t.isLt N_0⟩

/-- One update, read: the accumulator's element plus the tile's EIoU sum plus `coef` times its cross-entropy sum. -/
theorem step_apply (x0 x1 : Vec Ideal S5x16384 .f32) (acc : Vec Ideal S1x1 .f32) :
    step x0 x1 acc (ix2 (0 : Fin 1) (0 : Fin 1))
      = acc (ix2 (0 : Fin 1) (0 : Fin 1))
        + ((∑ d : Fin 16384, Cert.Spec.eiou (Ideal.logistic (x0 (ix2 (1 : Fin 5) d))) (Ideal.logistic (x0 (ix2 (2 : Fin 5) d)))
              (Ideal.logistic (x0 (ix2 (3 : Fin 5) d))) (Ideal.logistic (x0 (ix2 (4 : Fin 5) d)))
              (x1 (ix2 (1 : Fin 5) d)) (x1 (ix2 (2 : Fin 5) d)) (x1 (ix2 (3 : Fin 5) d)) (x1 (ix2 (4 : Fin 5) d)))
          + Cert.Spec.coef * ∑ d : Fin 16384, Cert.Spec.bce (x0 (ix2 (0 : Fin 5) d)) (x1 (ix2 (0 : Fin 5) d))) := by
  unfold step
  refine (Cert.KernelPay.pay1_apply _ _ _).trans ?_
  rw [Cert.KernelPay.pay23_apply]
  simp only [Cert.KernelPay.pay5_apply]

/-- At point `t` the update adds tile `t`'s term of the two argument arrays. -/
theorem tile_step (c : Dev nD) (t : Fin cfg0.N) (acc : Vec Ideal S1x1 .f32) :
    step (iblk m c 0 t) (iblk m c 1 t) acc (ix2 (0 : Fin 1) (0 : Fin 1))
      = acc (ix2 (0 : Fin 1) (0 : Fin 1)) + Cert.Spec.tileTerm (preds m c) (targs m c) (tileOf t) := by
  refine (step_apply (iblk m c 0 t) (iblk m c 1 t) acc).trans ?_
  unfold Cert.Spec.tileTerm Cert.Spec.boxE Cert.Spec.boxB
  refine congrArg (acc (ix2 (0 : Fin 1) (0 : Fin 1)) + ·) ?_
  refine congrArg₂ (· + ·) (Finset.sum_congr rfl fun d _ => ?_) (congrArg (Cert.Spec.coef * ·) (Finset.sum_congr rfl fun d _ => ?_))
  · rw [iblk0_apply m c t 1 d (Cert.Spec.boxOf (tileOf t) d) rfl, iblk0_apply m c t 2 d (Cert.Spec.boxOf (tileOf t) d) rfl,
      iblk0_apply m c t 3 d (Cert.Spec.boxOf (tileOf t) d) rfl, iblk0_apply m c t 4 d (Cert.Spec.boxOf (tileOf t) d) rfl,
      iblk1_apply m c t 1 d (Cert.Spec.boxOf (tileOf t) d) rfl, iblk1_apply m c t 2 d (Cert.Spec.boxOf (tileOf t) d) rfl,
      iblk1_apply m c t 3 d (Cert.Spec.boxOf (tileOf t) d) rfl, iblk1_apply m c t 4 d (Cert.Spec.boxOf (tileOf t) d) rfl]
  · rw [iblk0_apply m c t 0 d (Cert.Spec.boxOf (tileOf t) d) rfl, iblk1_apply m c t 0 d (Cert.Spec.boxOf (tileOf t) d) rfl]

/-- Tile `k`'s term for any natural number `k` (zero beyond the grid), so that partial sums can be written over ranges. -/
def term (c : Dev nD) (k : ℕ) : EReal :=
  if h : k < 256 then Cert.Spec.tileTerm (preds m c) (targs m c) ⟨k, h⟩ else 0

theorem term_tile (c : Dev nD) (t : Fin cfg0.N) :
    Cert.Spec.tileTerm (preds m c) (targs m c) (tileOf t) = term m c t.val := by
  unfold term
  rw [dif_pos (lt_of_lt_of_eq t.isLt N_0)]
  rfl

/-- The first point: the accumulator is cleared, then holds tile 0's term. -/
theorem acc_A (c : Dev nD) (t : Fin cfg0.N) (h0 : t.val % 256 = 0) (h1 : ¬t.val % 256 = 255) :
    (outsAt0 m c t.val t.isLt).2 (ix2 (0 : Fin 1) (0 : Fin 1)) = term m c t.val := by
  rw [outsAt0_A m c t h0 h1]
  dsimp only
  refine (congrFun (sout_A (F := Ideal) c (grid0.coords t) (ms0_0 t) (hs0_0 t) (ms0_1 t) (hs0_1 t) (ms0_2 t) (hs0_2 t) scM0_0
    (Memref.isWhole_whole _) _ _ (iblk m c 0 t) (iblk m c 1 t)) _).trans ?_
  rw [tile_step, Cert.KernelPay.pay2_apply, zero_add, term_tile]

/-- A middle point adds its tile's term to what the point before left. -/
theorem acc_B (c : Dev nD) (t : Fin cfg0.N) (h0 : ¬t.val % 256 = 0) (h1 : ¬t.val % 256 = 255) :
    (outsAt0 m c t.val t.isLt).2 (ix2 (0 : Fin 1) (0 : Fin 1))
      = (outsAt0 m c (t.val - 1) (Nat.lt_of_le_of_lt (Nat.sub_le _ _) t.isLt)).2 (ix2 (0 : Fin 1) (0 : Fin 1)) + term m c t.val := by
  rw [outsAt0_B m c t h0 h1]
  dsimp only
  refine (congrFun (sout_B (F := Ideal) c (grid0.coords t) (ms0_0 t) (hs0_0 t) (ms0_1 t) (hs0_1 t) (ms0_2 t) (hs0_2 t) scM0_0
    (Memref.isWhole_whole _) _ _ (iblk m c 0 t) (iblk m c 1 t) _) _).trans ?_
  rw [tile_step, term_tile]

/-- So does the last point, in the accumulator … -/
theorem acc_C (c : Dev nD) (t : Fin cfg0.N) (h0 : ¬t.val % 256 = 0) (h1 : t.val % 256 = 255) :
    (outsAt0 m c t.val t.isLt).2 (ix2 (0 : Fin 1) (0 : Fin 1))
      = (outsAt0 m c (t.val - 1) (Nat.lt_of_le_of_lt (Nat.sub_le _ _) t.isLt)).2 (ix2 (0 : Fin 1) (0 : Fin 1)) + term m c t.val := by
  rw [outsAt0_C m c t h0 h1]
  dsimp only
  refine (congrFun (sout_C (F := Ideal) c (grid0.coords t) (ms0_0 t) (hs0_0 t) (ms0_1 t) (hs0_1 t) (ms0_2 t) (hs0_2 t) scM0_0
    (Memref.isWhole_whole _) _ _ (iblk m c 0 t) (iblk m c 1 t) _) _).trans ?_
  rw [tile_step, term_tile]

/-- … and in the output block. -/
theorem out_C_apply (c : Dev nD) (t : Fin cfg0.N) (h0 : ¬t.val % 256 = 0) (h1 : t.val % 256 = 255) :
    (outsAt0 m c t.val t.isLt).1 (ix2 (0 : Fin 1) (0 : Fin 1))
      = (outsAt0 m c (t.val - 1) (Nat.lt_of_le_of_lt (Nat.sub_le _ _) t.isLt)).2 (ix2 (0 : Fin 1) (0 : Fin 1)) + term m c t.val := by
  rw [outsAt0_C m c t h0 h1]
  dsimp only
  refine (congrFun (out_C (F := Ideal) c (grid0.coords t) (ms0_0 t) (hs0_0 t) (ms0_1 t) (hs0_1 t) (ms0_2 t) (hs0_2 t) scM0_0
    (Memref.isWhole_whole _) _ _ (iblk m c 0 t) (iblk m c 1 t) _) _).trans ?_
  rw [tile_step, term_tile]

end Cert.KernelTotal

end
-- ==== Proof.KernelSum.lean ====
/-
  The accumulator after every point, by induction on the point: after point `n` it holds the sum of the terms of
  tiles 0 … n; so the output block written at the last point holds the sum over all 256 tiles.
-/
import proofs.«121938_j10067403341971_2_alg».proof.Proof.KernelTotal

noncomputable section

open Idealize.ShloMosaic Idealize.ShloMosaic.TcCoe Idealize.SL.Sem Idealize.ShloMosaic.ValueIdx
open Idealize.ShloMosaic.Pipeline (Dat)

namespace Cert.KernelTotal

open Cert.KernelIdeal Cert.KernelIdeal.Gen Cert.KernelAcc Cert.KernelBlocks

variable (m : (ℓ : Loc nD τ sig) → Buf (Elt Ideal) ℓ)

/-- The contents after a point depend on the point's number only (not on how the number is written). -/
theorem outs_congr (c : Dev nD) (a b : ℕ) (ha : a < cfg0.N) (hb : b < cfg0.N) (e : a = b) :
    outsAt0 m c a ha = outsAt0 m c b hb := by
  subst e
  exact congrArg (fun h => outsAt0 m c a h) (Subsingleton.elim ha hb)

/-- After point `n` the accumulator holds the sum of the terms of tiles 0 … n. -/
theorem acc_eq (c : Dev nD) : ∀ (n : ℕ) (h : n < cfg0.N),
    (outsAt0 m c n h).2 (ix2 (0 : Fin 1) (0 : Fin 1)) = ∑ k ∈ Finset.range (n + 1), term m c k
  | 0, h => by
    rw [Finset.sum_range_one]
    exact acc_A m c ⟨0, h⟩ rfl (by dsimp only; omega)
  | n + 1, h => by
    have hN : cfg0.N = 256 := N_0
    have h0 : ¬(⟨n + 1, h⟩ : Fin cfg0.N).val % 256 = 0 := by dsimp only; omega
    have e : outsAt0 m c ((⟨n + 1, h⟩ : Fin cfg0.N).val - 1) (Nat.lt_of_le_of_lt (Nat.sub_le _ _) (⟨n + 1, h⟩ : Fin cfg0.N).isLt)
        = outsAt0 m c n (Nat.lt_of_succ_lt h) := outs_congr m c _ _ _ _ (Nat.add_sub_cancel n 1)
    rw [Finset.sum_range_succ _ (n + 1), ← acc_eq c n (Nat.lt_of_succ_lt h)]
    by_cases h1 : (⟨n + 1, h⟩ : Fin cfg0.N).val % 256 = 255
    · exact (acc_C m c ⟨n + 1, h⟩ h0 h1).trans (by rw [e])
    · exact (acc_B m c ⟨n + 1, h⟩ h0 h1).trans (by rw [e])

/-- The output block that point number 255, the last, writes holds the sum of all 256 tiles' terms. -/
theorem out_last (c : Dev nD) (t : Fin cfg0.N) (ht : t.val = 255) :
    (outsAt0 m c t.val t.isLt).1 (ix2 (0 : Fin 1) (0 : Fin 1)) = ∑ t : Fin 256, Cert.Spec.tileTerm (preds m c) (targs m c) t := by
  refine (out_C_apply m c t (by omega) (by omega)).trans ?_
  rw [acc_eq m c (t.val - 1), show t.val - 1 + 1 = 255 from by omega, ht, ← Finset.sum_range_succ _ 255, Finset.sum_range]
  refine Finset.sum_congr rfl fun k _ => ?_
  unfold term
  rw [dif_pos k.isLt]

end Cert.KernelTotal

end
-- ==== Proof.KernelLoss.lean ====
/-
  The kernel program's result over the extended reals: the one element the last grid point writes is the sum of
  the 256 tiles' terms, and the lines after the kernel divide it by the count — the loss as the tiled program
  arranges it.
-/
import proofs.«121938_j10067403341971_2_alg».proof.Proof.KernelRun
import proofs.«121938_j10067403341971_2_alg».proof.Proof.KernelSum

noncomputable section

open Idealize.ShloMosaic Idealize.ShloMosaic.TcCoe Idealize.SL.Sem Idealize.ShloMosaic.ValueIdx
open Idealize.ShloMosaic.Pipeline (Dat)

namespace Cert.KernelLoss

open Cert.KernelIdeal Cert.KernelIdeal.Gen Cert.KernelTotal

variable (m : (ℓ : Loc nD τ sig) → Buf (Elt Ideal) ℓ)

/-- The one element of the result array is the sum of the tiles' terms. -/
theorem lastOut_apply (c : Dev nD) (y : S1x1.Idx) :
    Cert.KernelRun.lastOut m c y = ∑ t : Fin 256, Cert.Spec.tileTerm (preds m c) (targs m c) t := by
  obtain ⟨t, ht⟩ : ∃ t : Fin cfg0.N, t.val = 255 := ⟨⟨255, Cert.KernelRun.lt255⟩, rfl⟩
  rw [← Cert.KernelRun.out_at m c t.val t.isLt ht,
    show y = ix2 (0 : Fin 1) (0 : Fin 1) from @Subsingleton.elim S1x1.Idx inferInstance _ _]
  exact out_last m c t ht

/-- The program's result is the tiled loss of the two argument arrays. -/
theorem kernel_value (c : Dev nD) :
    Cert.KernelRun.tail (F := Ideal) (Cert.KernelRun.lastOut m c) = fun _ => Cert.Spec.lossTiled (preds m c) (targs m c) := by
  funext j
  show Ideal.div (Cert.KernelRun.lastOut m c (Shape.reshapeEquiv shapeCasts_S1x1_S_ j)) (Ideal.ofBits .f32 0x4A800000#32) = _
  rw [lastOut_apply]
  rfl

end Cert.KernelLoss

end
-- ==== Proof.RefSide.lean ====
/-
  The value of the plain program, as a formula. Its 176 operations are read at one box at a time: the sigmoid it
  spells as `1 / (1 + e^(-x))` is the logistic function, each slice-and-reshape picks one column of one of the two
  arrays, and what the elementwise operations then build from the columns is, operation for operation, the
  specification's EIoU term and cross-entropy term of that box. The two sums over the 4194304 boxes, each from zero
  and divided by the count, the second mean weighted by `coef` and the first added to it, are `Spec.lossPlain`.
-/
import proofs.«121938_j10067403341971_2_alg».proof.Proof.RefRead
import proofs.«121938_j10067403341971_2_alg».proof.Proof.Spec
import Idealize.ShloMosaic.Lib.IdealHost

noncomputable section

namespace Cert.RefValue

open Cert.ReferenceIdeal Cert.ReferenceIdeal.Read Idealize.ShloMosaic Idealize.ShloMosaic.ValueIdx

/-- The index of box `i`, column `k`, reached through a chain of slice and reshape index maps: the two
    coordinates agree (the reshape's `n / 1` is `n`, the column offsets add up). -/
local macro "idx_eq" : tactic => `(tactic| (funext a; match a with
  | ⟨0, _⟩ => exact Fin.ext (Nat.div_one _)
  | ⟨1, _⟩ => exact Fin.ext rfl))

/-- `1 / (1 + e^(-x))`, as the reference spells the sigmoid of the four corner columns, is the logistic function. -/
theorem sig (x0 : (⟨S4194304x5, .f32⟩ : BufTy).Contents (Elt Ideal)) (J : S4194304x4.Idx) :
    val_main_v6 (F := Ideal) x0 J = Ideal.logistic (x0 (idx_main_v0 J)) := by
  rw [val_main_v6_apply, val_main_v5_apply, val_main_cst_0_apply, val_main_v4_apply, val_main_v3_apply,
    val_main_cst_apply, val_main_v2_apply, val_main_v1_apply, val_main_v0_apply]
  simp only [Ideal.ofBits_def, Ideal.hostDivf_def, Ideal.addf_def, Ideal.hostUnary_exp_def, Ideal.hostNegf_def,
    Ideal.negf_def, Ideal.ofBits_one_f32]
  rfl

/-! ### The columns. A slice `[:, c:c+1]` of the squashed corners followed by a reshape to a vector is, at box `i`,
    the logistic function of column `c + 1` of the predictions; of the target corners, column `c + 1` of the targets. -/
theorem p9 (x0 : (⟨S4194304x5, .f32⟩ : BufTy).Contents (Elt Ideal)) (i : Fin 4194304) :
    val_main_v9 (F := Ideal) x0 (ix1 i) = Ideal.logistic (x0 (ix2 i (3 : Fin 5))) := by
  rw [val_main_v9_apply, val_main_v8_apply, sig]
  exact congrArg (fun j => Ideal.logistic (x0 j)) (by idx_eq)
theorem p11 (x0 : (⟨S4194304x5, .f32⟩ : BufTy).Contents (Elt Ideal)) (i : Fin 4194304) :
    val_main_v11 (F := Ideal) x0 (ix1 i) = Ideal.logistic (x0 (ix2 i (1 : Fin 5))) := by
  rw [val_main_v11_apply, val_main_v10_apply, sig]
  exact congrArg (fun j => Ideal.logistic (x0 j)) (by idx_eq)
theorem p15 (x0 : (⟨S4194304x5, .f32⟩ : BufTy).Contents (Elt Ideal)) (i : Fin 4194304) :
    val_main_v15 (F := Ideal) x0 (ix1 i) = Ideal.logistic (x0 (ix2 i (4 : Fin 5))) := by
  rw [val_main_v15_apply, val_main_v14_apply, sig]
  exact congrArg (fun j => Ideal.logistic (x0 j)) (by idx_eq)
theorem p17 (x0 : (⟨S4194304x5, .f32⟩ : BufTy).Contents (Elt Ideal)) (i : Fin 4194304) :
    val_main_v17 (F := Ideal) x0 (ix1 i) = Ideal.logistic (x0 (ix2 i (2 : Fin 5))) := by
  rw [val_main_v17_apply, val_main_v16_apply, sig]
  exact congrArg (fun j => Ideal.logistic (x0 j)) (by idx_eq)
theorem p33 (x0 : (⟨S4194304x5, .f32⟩ : BufTy).Contents (Elt Ideal)) (i : Fin 4194304) :
    val_main_v33 (F := Ideal) x0 (ix1 i) = Ideal.logistic (x0 (ix2 i (3 : Fin 5))) := by
  rw [val_main_v33_apply, val_main_v32_apply, sig]
  exact congrArg (fun j => Ideal.logistic (x0 j)) (by idx_eq)
theorem p35 (x0 : (⟨S4194304x5, .f32⟩ : BufTy).Contents (Elt Ideal)) (i : Fin 4194304) :
    val_main_v35 (F := Ideal) x0 (ix1 i) = Ideal.logistic (x0 (ix2 i (1 : Fin 5))) := by
  rw [val_main_v35_apply, val_main_v34_apply, sig]
  exact congrArg (fun j => Ideal.logistic (x0 j)) (by idx_eq)
theorem p38 (x0 : (⟨S4194304x5, .f32⟩ : BufTy).Contents (Elt Ideal)) (i : Fin 4194304) :
    val_main_v38 (F := Ideal) x0 (ix1 i) = Ideal.logistic (x0 (ix2 i (3 : Fin 5))) := by
  rw [val_main_v38_apply, val_main_v37_apply, sig]
  exact congrArg (fun j => Ideal.logistic (x0 j)) (by idx_eq)
theorem p40 (x0 : (⟨S4194304x5, .f32⟩ : BufTy).Contents (Elt Ideal)) (i : Fin 4194304) :
    val_main_v40 (F := Ideal) x0 (ix1 i) = Ideal.logistic (x0 (ix2 i (1 : Fin 5))) := by
  rw [val_main_v40_apply, val_main_v39_apply, sig]
  exact congrArg (fun j => Ideal.logistic (x0 j)) (by idx_eq)
theorem p43 (x0 : (⟨S4194304x5, .f32⟩ : BufTy).Contents (Elt Ideal)) (i : Fin 4194304) :
    val_main_v43 (F := Ideal) x0 (ix1 i) = Ideal.logistic (x0 (ix2 i (2 : Fin 5))) := by
  rw [val_main_v43_apply, val_main_v42_apply, sig]
  exact congrArg (fun j => Ideal.logistic (x0 j)) (by idx_eq)
theorem p45 (x0 : (⟨S4194304x5, .f32⟩ : BufTy).Contents (Elt Ideal)) (i : Fin 4194304) :
    val_main_v45 (F := Ideal) x0 (ix1 i) = Ideal.logistic (x0 (ix2 i (4 : Fin 5))) := by
  rw [val_main_v45_apply, val_main_v44_apply, sig]
  exact congrArg (fun j => Ideal.logistic (x0 j)) (by idx_eq)
theorem p48 (x0 : (⟨S4194304x5, .f32⟩ : BufTy).Contents (Elt Ideal)) (i : Fin 4194304) :
    val_main_v48 (F := Ideal) x0 (ix1 i) = Ideal.logistic (x0 (ix2 i (2 : Fin 5))) := by
  rw [val_main_v48_apply, val_main_v47_apply, sig]
  exact congrArg (fun j => Ideal.logistic (x0 j)) (by idx_eq)
theorem p50 (x0 : (⟨S4194304x5, .f32⟩ : BufTy).Contents (Elt Ideal)) (i : Fin 4194304) :
    val_main_v50 (F := Ideal) x0 (ix1 i) = Ideal.logistic (x0 (ix2 i (4 : Fin 5))) := by
  rw [val_main_v50_apply, val_main_v49_apply, sig]
  exact congrArg (fun j => Ideal.logistic (x0 j)) (by idx_eq)
theorem t22 (x1 : (⟨S4194304x5, .f32⟩ : BufTy).Contents (Elt Ideal)) (i : Fin 4194304) :
    val_main_v22 (F := Ideal) x1 (ix1 i) = x1 (ix2 i (3 : Fin 5)) := by
  rw [val_main_v22_apply, val_main_v21_apply, val_main_v7_apply]
  exact congrArg x1 (by idx_eq)
theorem t24 (x1 : (⟨S4194304x5, .f32⟩ : BufTy).Contents (Elt Ideal)) (i : Fin 4194304) :
    val_main_v24 (F := Ideal) x1 (ix1 i) = x1 (ix2 i (1 : Fin 5)) := by
  rw [val_main_v24_apply, val_main_v23_apply, val_main_v7_apply]
  exact congrArg x1 (by idx_eq)
theorem t27 (x1 : (⟨S4194304x5, .f32⟩ : BufTy).Contents (Elt Ideal)) (i : Fin 4194304) :
    val_main_v27 (F := Ideal) x1 (ix1 i) = x1 (ix2 i (4 : Fin 5)) := by
  rw [val_main_v27_apply, val_main_v26_apply, val_main_v7_apply]
  exact congrArg x1 (by idx_eq)
theorem t29 (x1 : (⟨S4194304x5, .f32⟩ : BufTy).Contents (Elt Ideal)) (i : Fin 4194304) :
    val_main_v29 (F := Ideal) x1 (ix1 i) = x1 (ix2 i (2 : Fin 5)) := by
  rw [val_main_v29_apply, val_main_v28_apply, val_main_v7_apply]
  exact congrArg x1 (by idx_eq)
theorem t53 (x1 : (⟨S4194304x5, .f32⟩ : BufTy).Contents (Elt Ideal)) (i : Fin 4194304) :
    val_main_v53 (F := Ideal) x1 (ix1 i) = x1 (ix2 i (1 : Fin 5)) := by
  rw [val_main_v53_apply, val_main_v52_apply, val_main_v7_apply]
  exact congrArg x1 (by idx_eq)
theorem t56 (x1 : (⟨S4194304x5, .f32⟩ : BufTy).Contents (Elt Ideal)) (i : Fin 4194304) :
    val_main_v56 (F := Ideal) x1 (ix1 i) = x1 (ix2 i (3 : Fin 5)) := by
  rw [val_main_v56_apply, val_main_v55_apply, val_main_v7_apply]
  exact congrArg x1 (by idx_eq)
theorem t59 (x1 : (⟨S4194304x5, .f32⟩ : BufTy).Contents (Elt Ideal)) (i : Fin 4194304) :
    val_main_v59 (F := Ideal) x1 (ix1 i) = x1 (ix2 i (2 : Fin 5)) := by
  rw [val_main_v59_apply, val_main_v58_apply, val_main_v7_apply]
  exact congrArg x1 (by idx_eq)
theorem t62 (x1 : (⟨S4194304x5, .f32⟩ : BufTy).Contents (Elt Ideal)) (i : Fin 4194304) :
    val_main_v62 (F := Ideal) x1 (ix1 i) = x1 (ix2 i (4 : Fin 5)) := by
  rw [val_main_v62_apply, val_main_v61_apply, val_main_v7_apply]
  exact congrArg x1 (by idx_eq)
theorem t71 (x1 : (⟨S4194304x5, .f32⟩ : BufTy).Contents (Elt Ideal)) (i : Fin 4194304) :
    val_main_v71 (F := Ideal) x1 (ix1 i) = x1 (ix2 i (1 : Fin 5)) := by
  rw [val_main_v71_apply, val_main_v70_apply, val_main_v7_apply]
  exact congrArg x1 (by idx_eq)
theorem t74 (x1 : (⟨S4194304x5, .f32⟩ : BufTy).Contents (Elt Ideal)) (i : Fin 4194304) :
    val_main_v74 (F := Ideal) x1 (ix1 i) = x1 (ix2 i (3 : Fin 5)) := by
  rw [val_main_v74_apply, val_main_v73_apply, val_main_v7_apply]
  exact congrArg x1 (by idx_eq)
theorem t77 (x1 : (⟨S4194304x5, .f32⟩ : BufTy).Contents (Elt Ideal)) (i : Fin 4194304) :
    val_main_v77 (F := Ideal) x1 (ix1 i) = x1 (ix2 i (2 : Fin 5)) := by
  rw [val_main_v77_apply, val_main_v76_apply, val_main_v7_apply]
  exact congrArg x1 (by idx_eq)
theorem t80 (x1 : (⟨S4194304x5, .f32⟩ : BufTy).Contents (Elt Ideal)) (i : Fin 4194304) :
    val_main_v80 (F := Ideal) x1 (ix1 i) = x1 (ix2 i (4 : Fin 5)) := by
  rw [val_main_v80_apply, val_main_v79_apply, val_main_v7_apply]
  exact congrArg x1 (by idx_eq)
theorem t86 (x1 : (⟨S4194304x5, .f32⟩ : BufTy).Contents (Elt Ideal)) (i : Fin 4194304) :
    val_main_v86 (F := Ideal) x1 (ix1 i) = x1 (ix2 i (3 : Fin 5)) := by
  rw [val_main_v86_apply, val_main_v85_apply, val_main_v7_apply]
  exact congrArg x1 (by idx_eq)
theorem t88 (x1 : (⟨S4194304x5, .f32⟩ : BufTy).Contents (Elt Ideal)) (i : Fin 4194304) :
    val_main_v88 (F := Ideal) x1 (ix1 i) = x1 (ix2 i (1 : Fin 5)) := by
  rw [val_main_v88_apply, val_main_v87_apply, val_main_v7_apply]
  exact congrArg x1 (by idx_eq)
theorem t92 (x1 : (⟨S4194304x5, .f32⟩ : BufTy).Contents (Elt Ideal)) (i : Fin 4194304) :
    val_main_v92 (F := Ideal) x1 (ix1 i) = x1 (ix2 i (4 : Fin 5)) := by
  rw [val_main_v92_apply, val_main_v91_apply, val_main_v7_apply]
  exact congrArg x1 (by idx_eq)
theorem t94 (x1 : (⟨S4194304x5, .f32⟩ : BufTy).Contents (Elt Ideal)) (i : Fin 4194304) :
    val_main_v94 (F := Ideal) x1 (ix1 i) = x1 (ix2 i (2 : Fin 5)) := by
  rw [val_main_v94_apply, val_main_v93_apply, val_main_v7_apply]
  exact congrArg x1 (by idx_eq)
theorem t106 (x1 : (⟨S4194304x5, .f32⟩ : BufTy).Contents (Elt Ideal)) (i : Fin 4194304) :
    val_main_v106 (F := Ideal) x1 (ix1 i) = x1 (ix2 i (3 : Fin 5)) := by
  rw [val_main_v106_apply, val_main_v105_apply, val_main_v7_apply]
  exact congrArg x1 (by idx_eq)
theorem t108 (x1 : (⟨S4194304x5, .f32⟩ : BufTy).Contents (Elt Ideal)) (i : Fin 4194304) :
    val_main_v108 (F := Ideal) x1 (ix1 i) = x1 (ix2 i (1 : Fin 5)) := by
  rw [val_main_v108_apply, val_main_v107_apply, val_main_v7_apply]
  exact congrArg x1 (by idx_eq)
theorem t113 (x1 : (⟨S4194304x5, .f32⟩ : BufTy).Contents (Elt Ideal)) (i : Fin 4194304) :
    val_main_v113 (F := Ideal) x1 (ix1 i) = x1 (ix2 i (4 : Fin 5)) := by
  rw [val_main_v113_apply, val_main_v112_apply, val_main_v7_apply]
  exact congrArg x1 (by idx_eq)
theorem t115 (x1 : (⟨S4194304x5, .f32⟩ : BufTy).Contents (Elt Ideal)) (i : Fin 4194304) :
    val_main_v115 (F := Ideal) x1 (ix1 i) = x1 (ix2 i (2 : Fin 5)) := by
  rw [val_main_v115_apply, val_main_v114_apply, val_main_v7_apply]
  exact congrArg x1 (by idx_eq)

/-- Column 0 of the predictions (the logit) and of the targets (the label), as vectors. -/
theorem p144 (x0 : (⟨S4194304x5, .f32⟩ : BufTy).Contents (Elt Ideal)) (i : Fin 4194304) :
    val_main_v144 (F := Ideal) x0 (ix1 i) = x0 (ix2 i (0 : Fin 5)) := by
  rw [val_main_v144_apply, val_main_v143_apply]
  exact congrArg x0 (by idx_eq)
theorem t146 (x1 : (⟨S4194304x5, .f32⟩ : BufTy).Contents (Elt Ideal)) (i : Fin 4194304) :
    val_main_v146 (F := Ideal) x1 (ix1 i) = x1 (ix2 i (0 : Fin 5)) := by
  rw [val_main_v146_apply, val_main_v145_apply]
  exact congrArg x1 (by idx_eq)

/-! ### One box. Reading the reference's operations at box `i`, outermost first, down to the columns leaves the
    specification's expression, operation for operation. -/

/-- The reference's EIoU term of box `i`. -/
theorem boxE_eq (x0 x1 : (⟨S4194304x5, .f32⟩ : BufTy).Contents (Elt Ideal)) (i : Fin 4194304) :
    val_main_v140 (F := Ideal) x0 x1 (ix1 i) = Spec.boxE x0 x1 i := by
  simp only [val_main_v140_apply, val_main_v139_apply, val_main_cst_7_apply, val_main_v138_apply, val_main_v137_apply,
    val_main_v136_apply, val_main_v135_apply, val_main_v134_apply, val_main_v133_apply, val_main_v132_apply,
    val_main_v131_apply, val_main_v130_apply, val_main_v129_apply, val_main_v128_apply, val_main_v127_apply,
    val_main_v126_apply, val_main_v125_apply, val_main_v124_apply, val_main_v123_apply, val_main_v122_apply,
    val_main_v121_apply, val_main_v120_apply, val_main_v119_apply, val_main_v118_apply, val_main_v117_apply,
    val_main_cst_6_apply, val_main_v116_apply, val_main_v111_apply, val_main_v110_apply, val_main_cst_5_apply,
    val_main_v109_apply, val_main_v104_apply, val_main_v103_apply, val_main_cst_4_apply, val_main_v102_apply,
    val_main_v101_apply, val_main_v100_apply, val_main_cst_3_apply, val_main_v99_apply, val_main_v98_apply,
    val_main_v97_apply, val_main_v96_apply, val_main_v95_apply, val_main_v90_apply, val_main_v89_apply,
    val_main_v84_apply, val_main_v83_apply, val_main_v82_apply, val_main_v81_apply, val_main_v78_apply,
    val_main_v75_apply, val_main_v72_apply, val_main_v69_apply, val_main_call0_v1_apply, val_main_call0_v0_apply,
    val_main_cst_2_apply, val_main_v68_apply, val_main_v67_apply, val_main_cst_1_apply, val_main_v66_apply,
    val_main_v65_apply, val_main_v64_apply, val_main_v63_apply, val_main_v60_apply, val_main_v57_apply,
    val_main_v54_apply, val_main_v51_apply, val_main_v46_apply, val_main_v41_apply, val_main_v36_apply,
    val_main_v31_apply, val_main_v30_apply, val_main_v25_apply, val_main_v20_apply, val_main_v19_apply,
    val_main_v18_apply, val_main_v13_apply, val_main_v12_apply,
    p9, p11, p15, p17, p33, p35, p38, p40, p43, p45, p48, p50, t22, t24, t27, t29, t53, t56, t59, t62, t71, t74,
    t77, t80, t86, t88, t92, t94, t106, t108, t113, t115,
    Ideal.ofBits_def, Ideal.addf_def, Ideal.subf_def, Ideal.mulf_def, Ideal.hostDivf_def, Ideal.maximumf_def,
    Ideal.minimumf_def, Ideal.hostAbsf_def, Ideal.absf_def, Ideal.hostNegf_def, Ideal.negf_def, Ideal.cmpf_def,
    Ideal.hostUnary_exp_def, Ideal.hostUnary_log1p_def,
    Spec.boxE, Spec.eiou, Spec.zero, Spec.half, Spec.one]

/-- The reference's cross-entropy term of box `i`. -/
theorem boxB_eq (x0 x1 : (⟨S4194304x5, .f32⟩ : BufTy).Contents (Elt Ideal)) (i : Fin 4194304) :
    val_main_v155 (F := Ideal) x0 x1 (ix1 i) = Spec.boxB x0 x1 i := by
  simp only [val_main_v155_apply, val_main_v154_apply, val_main_v153_apply, val_main_v152_apply, val_main_v151_apply,
    val_main_v150_apply, val_main_v149_apply, val_main_v148_apply, val_main_v147_apply, val_main_cst_10_apply,
    p144, t146,
    Ideal.ofBits_def, Ideal.addf_def, Ideal.subf_def, Ideal.mulf_def, Ideal.hostDivf_def, Ideal.maximumf_def,
    Ideal.minimumf_def, Ideal.hostAbsf_def, Ideal.absf_def, Ideal.hostNegf_def, Ideal.negf_def, Ideal.cmpf_def,
    Ideal.hostUnary_exp_def, Ideal.hostUnary_log1p_def,
    Spec.boxB, Spec.bce, Spec.zero]

/-! ### All the boxes -/

/-- The boxes' index set is `Fin 4194304`, through its one coordinate. -/
def boxEquiv : Fin 4194304 ≃ S4194304.Idx where
  toFun := ix1
  invFun j := j 0
  left_inv _ := rfl
  right_inv j := (eq_ix1 j).symm

/-- A sum over the boxes' index set, as a sum over `Fin 4194304`. -/
theorem sum_boxes (f : S4194304.Idx → EReal) : ∑ j : S4194304.Idx, f j = ∑ i : Fin 4194304, f (ix1 i) :=
  (Equiv.sum_comp boxEquiv f).symm

/-- The reference's result: each term summed over the boxes from zero and divided by the count, the cross-entropy
    mean weighted by `coef` and the EIoU mean added to it. -/
theorem ref_value (x0 x1 : (⟨S4194304x5, .f32⟩ : BufTy).Contents (Elt Ideal)) :
    val_main_v159 (F := Ideal) x0 x1 = fun _ => Spec.lossPlain x0 x1 := by
  funext j
  rw [val_main_v159_apply, val_main_v158_apply, val_main_cst_13_apply, val_main_v157_apply, val_main_v156_apply,
    val_main_cst_12_apply, val_main_cst_11_apply, val_main_v142_apply, val_main_v141_apply, val_main_cst_9_apply,
    val_main_cst_8_apply, sum_boxes, sum_boxes]
  simp only [boxE_eq, boxB_eq]
  rfl

end Cert.RefValue

end
-- ==== Proof.LibFold.lean ====
/-
  A line of host operations run in two stretches.

  `StableHlo.after ops V` is the valuation after the operations `ops`, applied in order to the valuation `V`.  Running
  a concatenation is running the first stretch and then the second from what the first leaves.  With it a long
  prefix of host operations can be read stage by stage: a later stretch's result as a function of what the earlier
  stretches left at its operands, each operand then read in its own smaller stretch — instead of one composed term in
  which a value used several times is written out once per use.
-/
import Idealize.ShloMosaic.Lib.StableHlo.Run

namespace Idealize.ShloMosaic.StableHlo

variable {τ : Topo} {sig : RefSig} {Val : EltTy → Type}

/-- The valuation after two stretches run one after the other. -/
theorem after_append (l₁ l₂ : List (HloOp τ sig Val)) (V : Valuation τ sig Val) :
    after (l₁ ++ l₂) V = after l₂ (after l₁ V) := by
  induction l₁ generalizing V with
  | nil => rfl
  | cons op ops ih => exact ih (op.result V)

end Idealize.ShloMosaic.StableHlo
-- ==== Proof.RefRun.lean ====
/- The reference program's run, read stretch by stretch (the tables of cases below are written by the script named above; the
   argument is this). The program is a straight line of 177 host operations. Evaluated in one pass into one composed term,
   a value that several later operations read is written out once per use and the term does not fit the machine's memory. So
   the line is cut into 15 stretches of at most 12 operations. The valuation after a concatenation is the valuation
   after the second stretch started from the one after the first (`after_append`). The invariant carried from stretch to
   stretch: every buffer that a later operation still reads holds its stage `val_main_vN` (the value its operation writes, as a
   function of the two argument arrays, named once however often it is read), and the two argument buffers hold the
   arguments. Within a stretch a new buffer's contents are its operation applied to its operands' contents, each operand
   either written earlier in the same stretch or held by the invariant; that is its stage by unfolding the stage's
   definition. After the last stretch the result buffer holds the last stage. -/
import proofs.«121938_j10067403341971_2_alg».proof.Proof.RefRead
import proofs.«121938_j10067403341971_2_alg».proof.Proof.RefOps
import proofs.«121938_j10067403341971_2_alg».proof.Proof.LibFold
import Idealize.ShloMosaic.Lib.StableHlo.Run

noncomputable section

namespace Cert.RefRun

open Cert.ReferenceIdeal Cert.ReferenceIdeal.Gen Cert.ReferenceIdeal.Read Cert.ReferenceIdeal.Value Idealize.ShloMosaic Idealize.ShloMosaic.TcCoe Idealize.SL.Sem Idealize.ShloMosaic.StableHlo

variable {F : FTy → Type} [FloatOps F]

/-- The operation list is its stretches, in order. -/
theorem ops_split : (ops : List (HloOp τ sig (Elt F))) = ops_s0 ++ (ops_s1 ++ (ops_s2 ++ (ops_s3 ++ (ops_s4 ++ (ops_s5 ++ (ops_s6 ++ (ops_s7 ++ (ops_s8 ++ (ops_s9 ++ (ops_s10 ++ (ops_s11 ++ (ops_s12 ++ (ops_s13 ++ (ops_s14)))))))))))))) := rfl

/-- Stretch 0: from a valuation holding the earlier stages at the buffers still to be read, the valuation after
    these operations holds the stages at the buffers still to be read afterwards. -/
theorem stage0 (V : Valuation τ sig (Elt F)) (x0 x1 : (⟨S4194304x5, .f32⟩ : BufTy).Contents (Elt F))
    (h_main_arg0 : V (Proc.devRef .tc main_arg0) = x0)
    (h_main_arg1 : V (Proc.devRef .tc main_arg1) = x1) :
    (after ops_s0 V (Proc.devRef .tc main_arg0) = x0)
    ∧ (after ops_s0 V (Proc.devRef .tc main_arg1) = x1)
    ∧ (after ops_s0 V (Proc.devRef .tc main_v6) = val_main_v6 (F := F) x0)
    ∧ (after ops_s0 V (Proc.devRef .tc main_v7) = val_main_v7 (F := F) x1)
    ∧ (after ops_s0 V (Proc.devRef .tc main_v9) = val_main_v9 (F := F) x0) := by
  refine ⟨?_, ?_, ?_, ?_, ?_⟩
  · after_results_simp; exact h_main_arg0
  · after_results_simp; exact h_main_arg1
  · after_results_simp; rw [h_main_arg0]; rfl
  · after_results_simp; rw [h_main_arg1]; rfl
  · after_results_simp; rw [h_main_arg0]; rfl

/-- Stretch 1: from a valuation holding the earlier stages at the buffers still to be read, the valuation after
    these operations holds the stages at the buffers still to be read afterwards. -/
theorem stage1 (V : Valuation τ sig (Elt F)) (x0 x1 : (⟨S4194304x5, .f32⟩ : BufTy).Contents (Elt F))
    (h_main_arg0 : V (Proc.devRef .tc main_arg0) = x0)
    (h_main_arg1 : V (Proc.devRef .tc main_arg1) = x1)
    (h_main_v6 : V (Proc.devRef .tc main_v6) = val_main_v6 (F := F) x0)
    (h_main_v7 : V (Proc.devRef .tc main_v7) = val_main_v7 (F := F) x1)
    (h_main_v9 : V (Proc.devRef .tc main_v9) = val_main_v9 (F := F) x0) :
    (after ops_s1 V (Proc.devRef .tc main_arg0) = x0)
    ∧ (after ops_s1 V (Proc.devRef .tc main_arg1) = x1)
    ∧ (after ops_s1 V (Proc.devRef .tc main_v6) = val_main_v6 (F := F) x0)
    ∧ (after ops_s1 V (Proc.devRef .tc main_v7) = val_main_v7 (F := F) x1)
    ∧ (after ops_s1 V (Proc.devRef .tc main_v20) = val_main_v20 (F := F) x0)
    ∧ (after ops_s1 V (Proc.devRef .tc main_v21) = val_main_v21 (F := F) x1) := by
  refine ⟨?_, ?_, ?_, ?_, ?_, ?_⟩
  · after_results_simp; exact h_main_arg0
  · after_results_simp; exact h_main_arg1
  · after_results_simp; exact h_main_v6
  · after_results_simp; exact h_main_v7
  · after_results_simp; rw [h_main_v9, h_main_v6]; rfl
  · after_results_simp; rw [h_main_v7]; rfl

/-- Stretch 2: from a valuation holding the earlier stages at the buffers still to be read, the valuation after
    these operations holds the stages at the buffers still to be read afterwards. -/
theorem stage2 (V : Valuation τ sig (Elt F)) (x0 x1 : (⟨S4194304x5, .f32⟩ : BufTy).Contents (Elt F))
    (h_main_arg0 : V (Proc.devRef .tc main_arg0) = x0)
    (h_main_arg1 : V (Proc.devRef .tc main_arg1) = x1)
    (h_main_v6 : V (Proc.devRef .tc main_v6) = val_main_v6 (F := F) x0)
    (h_main_v7 : V (Proc.devRef .tc main_v7) = val_main_v7 (F := F) x1)
    (h_main_v20 : V (Proc.devRef .tc main_v20) = val_main_v20 (F := F) x0)
    (h_main_v21 : V (Proc.devRef .tc main_v21) = val_main_v21 (F := F) x1) :
    (after ops_s2 V (Proc.devRef .tc main_arg0) = x0)
    ∧ (after ops_s2 V (Proc.devRef .tc main_arg1) = x1)
    ∧ (after ops_s2 V (Proc.devRef .tc main_v6) = val_main_v6 (F := F) x0)
    ∧ (after ops_s2 V (Proc.devRef .tc main_v7) = val_main_v7 (F := F) x1)
    ∧ (after ops_s2 V (Proc.devRef .tc main_v20) = val_main_v20 (F := F) x0)
    ∧ (after ops_s2 V (Proc.devRef .tc main_v31) = val_main_v31 (F := F) x1)
    ∧ (after ops_s2 V (Proc.devRef .tc main_v33) = val_main_v33 (F := F) x0) := by
  refine ⟨?_, ?_, ?_, ?_, ?_, ?_, ?_⟩
  · after_results_simp; exact h_main_arg0
  · after_results_simp; exact h_main_arg1
  · after_results_simp; exact h_main_v6
  · after_results_simp; exact h_main_v7
  · after_results_simp; exact h_main_v20
  · after_results_simp; rw [h_main_v21, h_main_v7]; rfl
  · after_results_simp; rw [h_main_v6]; rfl

/-- Stretch 3: from a valuation holding the earlier stages at the buffers still to be read, the valuation after
    these operations holds the stages at the buffers still to be read afterwards. -/
theorem stage3 (V : Valuation τ sig (Elt F)) (x0 x1 : (⟨S4194304x5, .f32⟩ : BufTy).Contents (Elt F))
    (h_main_arg0 : V (Proc.devRef .tc main_arg0) = x0)
    (h_main_arg1 : V (Proc.devRef .tc main_arg1) = x1)
    (h_main_v6 : V (Proc.devRef .tc main_v6) = val_main_v6 (F := F) x0)
    (h_main_v7 : V (Proc.devRef .tc main_v7) = val_main_v7 (F := F) x1)
    (h_main_v20 : V (Proc.devRef .tc main_v20) = val_main_v20 (F := F) x0)
    (h_main_v31 : V (Proc.devRef .tc main_v31) = val_main_v31 (F := F) x1)
    (h_main_v33 : V (Proc.devRef .tc main_v33) = val_main_v33 (F := F) x0) :
    (after ops_s3 V (Proc.devRef .tc main_arg0) = x0)
    ∧ (after ops_s3 V (Proc.devRef .tc main_arg1) = x1)
    ∧ (after ops_s3 V (Proc.devRef .tc main_v6) = val_main_v6 (F := F) x0)
    ∧ (after ops_s3 V (Proc.devRef .tc main_v7) = val_main_v7 (F := F) x1)
    ∧ (after ops_s3 V (Proc.devRef .tc main_v20) = val_main_v20 (F := F) x0)
    ∧ (after ops_s3 V (Proc.devRef .tc main_v31) = val_main_v31 (F := F) x1)
    ∧ (after ops_s3 V (Proc.devRef .tc main_v36) = val_main_v36 (F := F) x0)
    ∧ (after ops_s3 V (Proc.devRef .tc main_v41) = val_main_v41 (F := F) x0)
    ∧ (after ops_s3 V (Proc.devRef .tc main_v43) = val_main_v43 (F := F) x0)
    ∧ (after ops_s3 V (Proc.devRef .tc main_v45) = val_main_v45 (F := F) x0) := by
  refine ⟨?_, ?_, ?_, ?_, ?_, ?_, ?_, ?_, ?_, ?_⟩
  · after_results_simp; exact h_main_arg0
  · after_results_simp; exact h_main_arg1
  · after_results_simp; exact h_main_v6
  · after_results_simp; exact h_main_v7
  · after_results_simp; exact h_main_v20
  · after_results_simp; exact h_main_v31
  · after_results_simp; rw [h_main_v33, h_main_v6]; rfl
  · after_results_simp; rw [h_main_v6]; rfl
  · after_results_simp; rw [h_main_v6]; rfl
  · after_results_simp; rw [h_main_v6]; rfl

/-- Stretch 4: from a valuation holding the earlier stages at the buffers still to be read, the valuation after
    these operations holds the stages at the buffers still to be read afterwards. -/
theorem stage4 (V : Valuation τ sig (Elt F)) (x0 x1 : (⟨S4194304x5, .f32⟩ : BufTy).Contents (Elt F))
    (h_main_arg0 : V (Proc.devRef .tc main_arg0) = x0)
    (h_main_arg1 : V (Proc.devRef .tc main_arg1) = x1)
    (h_main_v6 : V (Proc.devRef .tc main_v6) = val_main_v6 (F := F) x0)
    (h_main_v7 : V (Proc.devRef .tc main_v7) = val_main_v7 (F := F) x1)
    (h_main_v20 : V (Proc.devRef .tc main_v20) = val_main_v20 (F := F) x0)
    (h_main_v31 : V (Proc.devRef .tc main_v31) = val_main_v31 (F := F) x1)
    (h_main_v36 : V (Proc.devRef .tc main_v36) = val_main_v36 (F := F) x0)
    (h_main_v41 : V (Proc.devRef .tc main_v41) = val_main_v41 (F := F) x0)
    (h_main_v43 : V (Proc.devRef .tc main_v43) = val_main_v43 (F := F) x0)
    (h_main_v45 : V (Proc.devRef .tc main_v45) = val_main_v45 (F := F) x0) :
    (after ops_s4 V (Proc.devRef .tc main_arg0) = x0)
    ∧ (after ops_s4 V (Proc.devRef .tc main_arg1) = x1)
    ∧ (after ops_s4 V (Proc.devRef .tc main_v7) = val_main_v7 (F := F) x1)
    ∧ (after ops_s4 V (Proc.devRef .tc main_v20) = val_main_v20 (F := F) x0)
    ∧ (after ops_s4 V (Proc.devRef .tc main_v31) = val_main_v31 (F := F) x1)
    ∧ (after ops_s4 V (Proc.devRef .tc main_v36) = val_main_v36 (F := F) x0)
    ∧ (after ops_s4 V (Proc.devRef .tc main_v41) = val_main_v41 (F := F) x0)
    ∧ (after ops_s4 V (Proc.devRef .tc main_v46) = val_main_v46 (F := F) x0)
    ∧ (after ops_s4 V (Proc.devRef .tc main_v51) = val_main_v51 (F := F) x0)
    ∧ (after ops_s4 V (Proc.devRef .tc main_v54) = val_main_v54 (F := F) x0 x1)
    ∧ (after ops_s4 V (Proc.devRef .tc main_v57) = val_main_v57 (F := F) x0 x1) := by
  refine ⟨?_, ?_, ?_, ?_, ?_, ?_, ?_, ?_, ?_, ?_, ?_⟩
  · after_results_simp; exact h_main_arg0
  · after_results_simp; exact h_main_arg1
  · after_results_simp; exact h_main_v7
  · after_results_simp; exact h_main_v20
  · after_results_simp; exact h_main_v31
  · after_results_simp; exact h_main_v36
  · after_results_simp; exact h_main_v41
  · after_results_simp; rw [h_main_v43, h_main_v45]; rfl
  · after_results_simp; rw [h_main_v6]; rfl
  · after_results_simp; rw [h_main_v36, h_main_v7]; rfl
  · after_results_simp; rw [h_main_v41, h_main_v7]; rfl

/-- Stretch 5: from a valuation holding the earlier stages at the buffers still to be read, the valuation after
    these operations holds the stages at the buffers still to be read afterwards. -/
theorem stage5 (V : Valuation τ sig (Elt F)) (x0 x1 : (⟨S4194304x5, .f32⟩ : BufTy).Contents (Elt F))
    (h_main_arg0 : V (Proc.devRef .tc main_arg0) = x0)
    (h_main_arg1 : V (Proc.devRef .tc main_arg1) = x1)
    (h_main_v7 : V (Proc.devRef .tc main_v7) = val_main_v7 (F := F) x1)
    (h_main_v20 : V (Proc.devRef .tc main_v20) = val_main_v20 (F := F) x0)
    (h_main_v31 : V (Proc.devRef .tc main_v31) = val_main_v31 (F := F) x1)
    (h_main_v36 : V (Proc.devRef .tc main_v36) = val_main_v36 (F := F) x0)
    (h_main_v41 : V (Proc.devRef .tc main_v41) = val_main_v41 (F := F) x0)
    (h_main_v46 : V (Proc.devRef .tc main_v46) = val_main_v46 (F := F) x0)
    (h_main_v51 : V (Proc.devRef .tc main_v51) = val_main_v51 (F := F) x0)
    (h_main_v54 : V (Proc.devRef .tc main_v54) = val_main_v54 (F := F) x0 x1)
    (h_main_v57 : V (Proc.devRef .tc main_v57) = val_main_v57 (F := F) x0 x1) :
    (after ops_s5 V (Proc.devRef .tc main_arg0) = x0)
    ∧ (after ops_s5 V (Proc.devRef .tc main_arg1) = x1)
    ∧ (after ops_s5 V (Proc.devRef .tc main_v7) = val_main_v7 (F := F) x1)
    ∧ (after ops_s5 V (Proc.devRef .tc main_v20) = val_main_v20 (F := F) x0)
    ∧ (after ops_s5 V (Proc.devRef .tc main_v31) = val_main_v31 (F := F) x1)
    ∧ (after ops_s5 V (Proc.devRef .tc main_v36) = val_main_v36 (F := F) x0)
    ∧ (after ops_s5 V (Proc.devRef .tc main_v41) = val_main_v41 (F := F) x0)
    ∧ (after ops_s5 V (Proc.devRef .tc main_v46) = val_main_v46 (F := F) x0)
    ∧ (after ops_s5 V (Proc.devRef .tc main_v51) = val_main_v51 (F := F) x0)
    ∧ (after ops_s5 V (Proc.devRef .tc main_v66) = val_main_v66 (F := F) x0 x1)
    ∧ (after ops_s5 V (Proc.devRef .tc main_v68) = val_main_v68 (F := F) x0 x1) := by
  refine ⟨?_, ?_, ?_, ?_, ?_, ?_, ?_, ?_, ?_, ?_, ?_⟩
  · after_results_simp; exact h_main_arg0
  · after_results_simp; exact h_main_arg1
  · after_results_simp; exact h_main_v7
  · after_results_simp; exact h_main_v20
  · after_results_simp; exact h_main_v31
  · after_results_simp; exact h_main_v36
  · after_results_simp; exact h_main_v41
  · after_results_simp; exact h_main_v46
  · after_results_simp; exact h_main_v51
  · after_results_simp; rw [h_main_v57, h_main_v54, h_main_v51, h_main_v7, h_main_v46]; rfl
  · after_results_simp; rw [h_main_v57, h_main_v54, h_main_v51, h_main_v7, h_main_v46]; rfl

/-- Stretch 6: from a valuation holding the earlier stages at the buffers still to be read, the valuation after
    these operations holds the stages at the buffers still to be read afterwards. -/
theorem stage6 (V : Valuation τ sig (Elt F)) (x0 x1 : (⟨S4194304x5, .f32⟩ : BufTy).Contents (Elt F))
    (h_main_arg0 : V (Proc.devRef .tc main_arg0) = x0)
    (h_main_arg1 : V (Proc.devRef .tc main_arg1) = x1)
    (h_main_v7 : V (Proc.devRef .tc main_v7) = val_main_v7 (F := F) x1)
    (h_main_v20 : V (Proc.devRef .tc main_v20) = val_main_v20 (F := F) x0)
    (h_main_v31 : V (Proc.devRef .tc main_v31) = val_main_v31 (F := F) x1)
    (h_main_v36 : V (Proc.devRef .tc main_v36) = val_main_v36 (F := F) x0)
    (h_main_v41 : V (Proc.devRef .tc main_v41) = val_main_v41 (F := F) x0)
    (h_main_v46 : V (Proc.devRef .tc main_v46) = val_main_v46 (F := F) x0)
    (h_main_v51 : V (Proc.devRef .tc main_v51) = val_main_v51 (F := F) x0)
    (h_main_v66 : V (Proc.devRef .tc main_v66) = val_main_v66 (F := F) x0 x1)
    (h_main_v68 : V (Proc.devRef .tc main_v68) = val_main_v68 (F := F) x0 x1) :
    (after ops_s6 V (Proc.devRef .tc main_arg0) = x0)
    ∧ (after ops_s6 V (Proc.devRef .tc main_arg1) = x1)
    ∧ (after ops_s6 V (Proc.devRef .tc main_v7) = val_main_v7 (F := F) x1)
    ∧ (after ops_s6 V (Proc.devRef .tc main_v20) = val_main_v20 (F := F) x0)
    ∧ (after ops_s6 V (Proc.devRef .tc main_v31) = val_main_v31 (F := F) x1)
    ∧ (after ops_s6 V (Proc.devRef .tc main_v36) = val_main_v36 (F := F) x0)
    ∧ (after ops_s6 V (Proc.devRef .tc main_v41) = val_main_v41 (F := F) x0)
    ∧ (after ops_s6 V (Proc.devRef .tc main_v46) = val_main_v46 (F := F) x0)
    ∧ (after ops_s6 V (Proc.devRef .tc main_v51) = val_main_v51 (F := F) x0)
    ∧ (after ops_s6 V (Proc.devRef .tc main_v69) = val_main_v69 (F := F) x0 x1)
    ∧ (after ops_s6 V (Proc.devRef .tc main_v72) = val_main_v72 (F := F) x0 x1)
    ∧ (after ops_s6 V (Proc.devRef .tc main_v75) = val_main_v75 (F := F) x0 x1)
    ∧ (after ops_s6 V (Proc.devRef .tc main_v77) = val_main_v77 (F := F) x1) := by
  refine ⟨?_, ?_, ?_, ?_, ?_, ?_, ?_, ?_, ?_, ?_, ?_, ?_, ?_⟩
  · after_results_simp; exact h_main_arg0
  · after_results_simp; exact h_main_arg1
  · after_results_simp; exact h_main_v7
  · after_results_simp; exact h_main_v20
  · after_results_simp; exact h_main_v31
  · after_results_simp; exact h_main_v36
  · after_results_simp; exact h_main_v41
  · after_results_simp; exact h_main_v46
  · after_results_simp; exact h_main_v51
  · after_results_simp; rw [h_main_v68, h_main_v66]; rfl
  · after_results_simp; rw [h_main_v36, h_main_v7]; rfl
  · after_results_simp; rw [h_main_v41, h_main_v7]; rfl
  · after_results_simp; rw [h_main_v7]; rfl

/-- Stretch 7: from a valuation holding the earlier stages at the buffers still to be read, the valuation after
    these operations holds the stages at the buffers still to be read afterwards. -/
theorem stage7 (V : Valuation τ sig (Elt F)) (x0 x1 : (⟨S4194304x5, .f32⟩ : BufTy).Contents (Elt F))
    (h_main_arg0 : V (Proc.devRef .tc main_arg0) = x0)
    (h_main_arg1 : V (Proc.devRef .tc main_arg1) = x1)
    (h_main_v7 : V (Proc.devRef .tc main_v7) = val_main_v7 (F := F) x1)
    (h_main_v20 : V (Proc.devRef .tc main_v20) = val_main_v20 (F := F) x0)
    (h_main_v31 : V (Proc.devRef .tc main_v31) = val_main_v31 (F := F) x1)
    (h_main_v36 : V (Proc.devRef .tc main_v36) = val_main_v36 (F := F) x0)
    (h_main_v41 : V (Proc.devRef .tc main_v41) = val_main_v41 (F := F) x0)
    (h_main_v46 : V (Proc.devRef .tc main_v46) = val_main_v46 (F := F) x0)
    (h_main_v51 : V (Proc.devRef .tc main_v51) = val_main_v51 (F := F) x0)
    (h_main_v69 : V (Proc.devRef .tc main_v69) = val_main_v69 (F := F) x0 x1)
    (h_main_v72 : V (Proc.devRef .tc main_v72) = val_main_v72 (F := F) x0 x1)
    (h_main_v75 : V (Proc.devRef .tc main_v75) = val_main_v75 (F := F) x0 x1)
    (h_main_v77 : V (Proc.devRef .tc main_v77) = val_main_v77 (F := F) x1) :
    (after ops_s7 V (Proc.devRef .tc main_arg0) = x0)
    ∧ (after ops_s7 V (Proc.devRef .tc main_arg1) = x1)
    ∧ (after ops_s7 V (Proc.devRef .tc main_v7) = val_main_v7 (F := F) x1)
    ∧ (after ops_s7 V (Proc.devRef .tc main_v20) = val_main_v20 (F := F) x0)
    ∧ (after ops_s7 V (Proc.devRef .tc main_v31) = val_main_v31 (F := F) x1)
    ∧ (after ops_s7 V (Proc.devRef .tc main_v36) = val_main_v36 (F := F) x0)
    ∧ (after ops_s7 V (Proc.devRef .tc main_v41) = val_main_v41 (F := F) x0)
    ∧ (after ops_s7 V (Proc.devRef .tc main_v46) = val_main_v46 (F := F) x0)
    ∧ (after ops_s7 V (Proc.devRef .tc main_v51) = val_main_v51 (F := F) x0)
    ∧ (after ops_s7 V (Proc.devRef .tc main_v69) = val_main_v69 (F := F) x0 x1)
    ∧ (after ops_s7 V (Proc.devRef .tc main_v82) = val_main_v82 (F := F) x0 x1)
    ∧ (after ops_s7 V (Proc.devRef .tc main_v83) = val_main_v83 (F := F) x0 x1)
    ∧ (after ops_s7 V (Proc.devRef .tc main_v84) = val_main_v84 (F := F) x0)
    ∧ (after ops_s7 V (Proc.devRef .tc main_v89) = val_main_v89 (F := F) x1) := by
  refine ⟨?_, ?_, ?_, ?_, ?_, ?_, ?_, ?_, ?_, ?_, ?_, ?_, ?_, ?_⟩
  · after_results_simp; exact h_main_arg0
  · after_results_simp; exact h_main_arg1
  · after_results_simp; exact h_main_v7
  · after_results_simp; exact h_main_v20
  · after_results_simp; exact h_main_v31
  · after_results_simp; exact h_main_v36
  · after_results_simp; exact h_main_v41
  · after_results_simp; exact h_main_v46
  · after_results_simp; exact h_main_v51
  · after_results_simp; exact h_main_v69
  · after_results_simp; rw [h_main_v75, h_main_v72]; rfl
  · after_results_simp; rw [h_main_v51, h_main_v7, h_main_v46, h_main_v77]; rfl
  · after_results_simp; rw [h_main_v41, h_main_v36]; rfl
  · after_results_simp; rw [h_main_v7]; rfl

/-- Stretch 8: from a valuation holding the earlier stages at the buffers still to be read, the valuation after
    these operations holds the stages at the buffers still to be read afterwards. -/
theorem stage8 (V : Valuation τ sig (Elt F)) (x0 x1 : (⟨S4194304x5, .f32⟩ : BufTy).Contents (Elt F))
    (h_main_arg0 : V (Proc.devRef .tc main_arg0) = x0)
    (h_main_arg1 : V (Proc.devRef .tc main_arg1) = x1)
    (h_main_v7 : V (Proc.devRef .tc main_v7) = val_main_v7 (F := F) x1)
    (h_main_v20 : V (Proc.devRef .tc main_v20) = val_main_v20 (F := F) x0)
    (h_main_v31 : V (Proc.devRef .tc main_v31) = val_main_v31 (F := F) x1)
    (h_main_v36 : V (Proc.devRef .tc main_v36) = val_main_v36 (F := F) x0)
    (h_main_v41 : V (Proc.devRef .tc main_v41) = val_main_v41 (F := F) x0)
    (h_main_v46 : V (Proc.devRef .tc main_v46) = val_main_v46 (F := F) x0)
    (h_main_v51 : V (Proc.devRef .tc main_v51) = val_main_v51 (F := F) x0)
    (h_main_v69 : V (Proc.devRef .tc main_v69) = val_main_v69 (F := F) x0 x1)
    (h_main_v82 : V (Proc.devRef .tc main_v82) = val_main_v82 (F := F) x0 x1)
    (h_main_v83 : V (Proc.devRef .tc main_v83) = val_main_v83 (F := F) x0 x1)
    (h_main_v84 : V (Proc.devRef .tc main_v84) = val_main_v84 (F := F) x0)
    (h_main_v89 : V (Proc.devRef .tc main_v89) = val_main_v89 (F := F) x1) :
    (after ops_s8 V (Proc.devRef .tc main_arg0) = x0)
    ∧ (after ops_s8 V (Proc.devRef .tc main_arg1) = x1)
    ∧ (after ops_s8 V (Proc.devRef .tc main_v7) = val_main_v7 (F := F) x1)
    ∧ (after ops_s8 V (Proc.devRef .tc main_v46) = val_main_v46 (F := F) x0)
    ∧ (after ops_s8 V (Proc.devRef .tc main_v51) = val_main_v51 (F := F) x0)
    ∧ (after ops_s8 V (Proc.devRef .tc main_v82) = val_main_v82 (F := F) x0 x1)
    ∧ (after ops_s8 V (Proc.devRef .tc main_v83) = val_main_v83 (F := F) x0 x1)
    ∧ (after ops_s8 V (Proc.devRef .tc main_v84) = val_main_v84 (F := F) x0)
    ∧ (after ops_s8 V (Proc.devRef .tc main_v89) = val_main_v89 (F := F) x1)
    ∧ (after ops_s8 V (Proc.devRef .tc main_v90) = val_main_v90 (F := F) x0)
    ∧ (after ops_s8 V (Proc.devRef .tc main_v95) = val_main_v95 (F := F) x1)
    ∧ (after ops_s8 V (Proc.devRef .tc main_v98) = val_main_v98 (F := F) x0 x1)
    ∧ (after ops_s8 V (Proc.devRef .tc main_v99) = val_main_v99 (F := F) x0)
    ∧ (after ops_s8 V (Proc.devRef .tc main_v100) = val_main_v100 (F := F)) := by
  refine ⟨?_, ?_, ?_, ?_, ?_, ?_, ?_, ?_, ?_, ?_, ?_, ?_, ?_, ?_⟩
  · after_results_simp; exact h_main_arg0
  · after_results_simp; exact h_main_arg1
  · after_results_simp; exact h_main_v7
  · after_results_simp; exact h_main_v46
  · after_results_simp; exact h_main_v51
  · after_results_simp; exact h_main_v82
  · after_results_simp; exact h_main_v83
  · after_results_simp; exact h_main_v84
  · after_results_simp; exact h_main_v89
  · after_results_simp; rw [h_main_v51, h_main_v46]; rfl
  · after_results_simp; rw [h_main_v7]; rfl
  · after_results_simp; rw [h_main_v69, h_main_v31, h_main_v20]; rfl
  · after_results_simp; rw [h_main_v41, h_main_v36]; rfl
  · after_results_simp; rfl

/-- Stretch 9: from a valuation holding the earlier stages at the buffers still to be read, the valuation after
    these operations holds the stages at the buffers still to be read afterwards. -/
theorem stage9 (V : Valuation τ sig (Elt F)) (x0 x1 : (⟨S4194304x5, .f32⟩ : BufTy).Contents (Elt F))
    (h_main_arg0 : V (Proc.devRef .tc main_arg0) = x0)
    (h_main_arg1 : V (Proc.devRef .tc main_arg1) = x1)
    (h_main_v7 : V (Proc.devRef .tc main_v7) = val_main_v7 (F := F) x1)
    (h_main_v46 : V (Proc.devRef .tc main_v46) = val_main_v46 (F := F) x0)
    (h_main_v51 : V (Proc.devRef .tc main_v51) = val_main_v51 (F := F) x0)
    (h_main_v82 : V (Proc.devRef .tc main_v82) = val_main_v82 (F := F) x0 x1)
    (h_main_v83 : V (Proc.devRef .tc main_v83) = val_main_v83 (F := F) x0 x1)
    (h_main_v84 : V (Proc.devRef .tc main_v84) = val_main_v84 (F := F) x0)
    (h_main_v89 : V (Proc.devRef .tc main_v89) = val_main_v89 (F := F) x1)
    (h_main_v90 : V (Proc.devRef .tc main_v90) = val_main_v90 (F := F) x0)
    (h_main_v95 : V (Proc.devRef .tc main_v95) = val_main_v95 (F := F) x1)
    (h_main_v98 : V (Proc.devRef .tc main_v98) = val_main_v98 (F := F) x0 x1)
    (h_main_v99 : V (Proc.devRef .tc main_v99) = val_main_v99 (F := F) x0)
    (h_main_v100 : V (Proc.devRef .tc main_v100) = val_main_v100 (F := F)) :
    (after ops_s9 V (Proc.devRef .tc main_arg0) = x0)
    ∧ (after ops_s9 V (Proc.devRef .tc main_arg1) = x1)
    ∧ (after ops_s9 V (Proc.devRef .tc main_v7) = val_main_v7 (F := F) x1)
    ∧ (after ops_s9 V (Proc.devRef .tc main_v82) = val_main_v82 (F := F) x0 x1)
    ∧ (after ops_s9 V (Proc.devRef .tc main_v83) = val_main_v83 (F := F) x0 x1)
    ∧ (after ops_s9 V (Proc.devRef .tc main_v84) = val_main_v84 (F := F) x0)
    ∧ (after ops_s9 V (Proc.devRef .tc main_v89) = val_main_v89 (F := F) x1)
    ∧ (after ops_s9 V (Proc.devRef .tc main_v90) = val_main_v90 (F := F) x0)
    ∧ (after ops_s9 V (Proc.devRef .tc main_v95) = val_main_v95 (F := F) x1)
    ∧ (after ops_s9 V (Proc.devRef .tc main_v98) = val_main_v98 (F := F) x0 x1)
    ∧ (after ops_s9 V (Proc.devRef .tc main_v101) = val_main_v101 (F := F) x0)
    ∧ (after ops_s9 V (Proc.devRef .tc main_v104) = val_main_v104 (F := F) x0)
    ∧ (after ops_s9 V (Proc.devRef .tc main_v109) = val_main_v109 (F := F) x1)
    ∧ (after ops_s9 V (Proc.devRef .tc main_v110) = val_main_v110 (F := F)) := by
  refine ⟨?_, ?_, ?_, ?_, ?_, ?_, ?_, ?_, ?_, ?_, ?_, ?_, ?_, ?_⟩
  · after_results_simp; exact h_main_arg0
  · after_results_simp; exact h_main_arg1
  · after_results_simp; exact h_main_v7
  · after_results_simp; exact h_main_v82
  · after_results_simp; exact h_main_v83
  · after_results_simp; exact h_main_v84
  · after_results_simp; exact h_main_v89
  · after_results_simp; exact h_main_v90
  · after_results_simp; exact h_main_v95
  · after_results_simp; exact h_main_v98
  · after_results_simp; rw [h_main_v99, h_main_v100]; rfl
  · after_results_simp; rw [h_main_v51, h_main_v46]; rfl
  · after_results_simp; rw [h_main_v7]; rfl
  · after_results_simp; rfl

/-- Stretch 10: from a valuation holding the earlier stages at the buffers still to be read, the valuation after
    these operations holds the stages at the buffers still to be read afterwards. -/
theorem stage10 (V : Valuation τ sig (Elt F)) (x0 x1 : (⟨S4194304x5, .f32⟩ : BufTy).Contents (Elt F))
    (h_main_arg0 : V (Proc.devRef .tc main_arg0) = x0)
    (h_main_arg1 : V (Proc.devRef .tc main_arg1) = x1)
    (h_main_v7 : V (Proc.devRef .tc main_v7) = val_main_v7 (F := F) x1)
    (h_main_v82 : V (Proc.devRef .tc main_v82) = val_main_v82 (F := F) x0 x1)
    (h_main_v83 : V (Proc.devRef .tc main_v83) = val_main_v83 (F := F) x0 x1)
    (h_main_v84 : V (Proc.devRef .tc main_v84) = val_main_v84 (F := F) x0)
    (h_main_v89 : V (Proc.devRef .tc main_v89) = val_main_v89 (F := F) x1)
    (h_main_v90 : V (Proc.devRef .tc main_v90) = val_main_v90 (F := F) x0)
    (h_main_v95 : V (Proc.devRef .tc main_v95) = val_main_v95 (F := F) x1)
    (h_main_v98 : V (Proc.devRef .tc main_v98) = val_main_v98 (F := F) x0 x1)
    (h_main_v101 : V (Proc.devRef .tc main_v101) = val_main_v101 (F := F) x0)
    (h_main_v104 : V (Proc.devRef .tc main_v104) = val_main_v104 (F := F) x0)
    (h_main_v109 : V (Proc.devRef .tc main_v109) = val_main_v109 (F := F) x1)
    (h_main_v110 : V (Proc.devRef .tc main_v110) = val_main_v110 (F := F)) :
    (after ops_s10 V (Proc.devRef .tc main_arg0) = x0)
    ∧ (after ops_s10 V (Proc.devRef .tc main_arg1) = x1)
    ∧ (after ops_s10 V (Proc.devRef .tc main_v82) = val_main_v82 (F := F) x0 x1)
    ∧ (after ops_s10 V (Proc.devRef .tc main_v84) = val_main_v84 (F := F) x0)
    ∧ (after ops_s10 V (Proc.devRef .tc main_v89) = val_main_v89 (F := F) x1)
    ∧ (after ops_s10 V (Proc.devRef .tc main_v90) = val_main_v90 (F := F) x0)
    ∧ (after ops_s10 V (Proc.devRef .tc main_v95) = val_main_v95 (F := F) x1)
    ∧ (after ops_s10 V (Proc.devRef .tc main_v98) = val_main_v98 (F := F) x0 x1)
    ∧ (after ops_s10 V (Proc.devRef .tc main_v101) = val_main_v101 (F := F) x0)
    ∧ (after ops_s10 V (Proc.devRef .tc main_v104) = val_main_v104 (F := F) x0)
    ∧ (after ops_s10 V (Proc.devRef .tc main_v111) = val_main_v111 (F := F) x1)
    ∧ (after ops_s10 V (Proc.devRef .tc main_v118) = val_main_v118 (F := F) x1)
    ∧ (after ops_s10 V (Proc.devRef .tc main_v121) = val_main_v121 (F := F) x0 x1) := by
  refine ⟨?_, ?_, ?_, ?_, ?_, ?_, ?_, ?_, ?_, ?_, ?_, ?_, ?_⟩
  · after_results_simp; exact h_main_arg0
  · after_results_simp; exact h_main_arg1
  · after_results_simp; exact h_main_v82
  · after_results_simp; exact h_main_v84
  · after_results_simp; exact h_main_v89
  · after_results_simp; exact h_main_v90
  · after_results_simp; exact h_main_v95
  · after_results_simp; exact h_main_v98
  · after_results_simp; exact h_main_v101
  · after_results_simp; exact h_main_v104
  · after_results_simp; rw [h_main_v109, h_main_v110]; rfl
  · after_results_simp; rw [h_main_v7]; rfl
  · after_results_simp; rw [h_main_v82, h_main_v83]; rfl

/-- Stretch 11: from a valuation holding the earlier stages at the buffers still to be read, the valuation after
    these operations holds the stages at the buffers still to be read afterwards. -/
theorem stage11 (V : Valuation τ sig (Elt F)) (x0 x1 : (⟨S4194304x5, .f32⟩ : BufTy).Contents (Elt F))
    (h_main_arg0 : V (Proc.devRef .tc main_arg0) = x0)
    (h_main_arg1 : V (Proc.devRef .tc main_arg1) = x1)
    (h_main_v82 : V (Proc.devRef .tc main_v82) = val_main_v82 (F := F) x0 x1)
    (h_main_v84 : V (Proc.devRef .tc main_v84) = val_main_v84 (F := F) x0)
    (h_main_v89 : V (Proc.devRef .tc main_v89) = val_main_v89 (F := F) x1)
    (h_main_v90 : V (Proc.devRef .tc main_v90) = val_main_v90 (F := F) x0)
    (h_main_v95 : V (Proc.devRef .tc main_v95) = val_main_v95 (F := F) x1)
    (h_main_v98 : V (Proc.devRef .tc main_v98) = val_main_v98 (F := F) x0 x1)
    (h_main_v101 : V (Proc.devRef .tc main_v101) = val_main_v101 (F := F) x0)
    (h_main_v104 : V (Proc.devRef .tc main_v104) = val_main_v104 (F := F) x0)
    (h_main_v111 : V (Proc.devRef .tc main_v111) = val_main_v111 (F := F) x1)
    (h_main_v118 : V (Proc.devRef .tc main_v118) = val_main_v118 (F := F) x1)
    (h_main_v121 : V (Proc.devRef .tc main_v121) = val_main_v121 (F := F) x0 x1) :
    (after ops_s11 V (Proc.devRef .tc main_arg0) = x0)
    ∧ (after ops_s11 V (Proc.devRef .tc main_arg1) = x1)
    ∧ (after ops_s11 V (Proc.devRef .tc main_v95) = val_main_v95 (F := F) x1)
    ∧ (after ops_s11 V (Proc.devRef .tc main_v98) = val_main_v98 (F := F) x0 x1)
    ∧ (after ops_s11 V (Proc.devRef .tc main_v127) = val_main_v127 (F := F) x0 x1)
    ∧ (after ops_s11 V (Proc.devRef .tc main_v131) = val_main_v131 (F := F) x0 x1)
    ∧ (after ops_s11 V (Proc.devRef .tc main_v133) = val_main_v133 (F := F) x0 x1) := by
  refine ⟨?_, ?_, ?_, ?_, ?_, ?_, ?_⟩
  · after_results_simp; exact h_main_arg0
  · after_results_simp; exact h_main_arg1
  · after_results_simp; exact h_main_v95
  · after_results_simp; exact h_main_v98
  · after_results_simp; rw [h_main_v101, h_main_v111, h_main_v104, h_main_v118, h_main_v121]; rfl
  · after_results_simp; rw [h_main_v84, h_main_v89, h_main_v82]; rfl
  · after_results_simp; rw [h_main_v90, h_main_v95]; rfl

/-- Stretch 12: from a valuation holding the earlier stages at the buffers still to be read, the valuation after
    these operations holds the stages at the buffers still to be read afterwards. -/
theorem stage12 (V : Valuation τ sig (Elt F)) (x0 x1 : (⟨S4194304x5, .f32⟩ : BufTy).Contents (Elt F))
    (h_main_arg0 : V (Proc.devRef .tc main_arg0) = x0)
    (h_main_arg1 : V (Proc.devRef .tc main_arg1) = x1)
    (h_main_v95 : V (Proc.devRef .tc main_v95) = val_main_v95 (F := F) x1)
    (h_main_v98 : V (Proc.devRef .tc main_v98) = val_main_v98 (F := F) x0 x1)
    (h_main_v127 : V (Proc.devRef .tc main_v127) = val_main_v127 (F := F) x0 x1)
    (h_main_v131 : V (Proc.devRef .tc main_v131) = val_main_v131 (F := F) x0 x1)
    (h_main_v133 : V (Proc.devRef .tc main_v133) = val_main_v133 (F := F) x0 x1) :
    (after ops_s12 V (Proc.devRef .tc main_arg0) = x0)
    ∧ (after ops_s12 V (Proc.devRef .tc main_arg1) = x1)
    ∧ (after ops_s12 V (Proc.devRef .tc main_v142) = val_main_v142 (F := F) x0 x1) := by
  refine ⟨?_, ?_, ?_⟩
  · after_results_simp; exact h_main_arg0
  · after_results_simp; exact h_main_arg1
  · after_results_simp; rw [h_main_v98, h_main_v127, h_main_v131, h_main_v133, h_main_v95]; rfl

/-- Stretch 13: from a valuation holding the earlier stages at the buffers still to be read, the valuation after
    these operations holds the stages at the buffers still to be read afterwards. -/
theorem stage13 (V : Valuation τ sig (Elt F)) (x0 x1 : (⟨S4194304x5, .f32⟩ : BufTy).Contents (Elt F))
    (h_main_arg0 : V (Proc.devRef .tc main_arg0) = x0)
    (h_main_arg1 : V (Proc.devRef .tc main_arg1) = x1)
    (h_main_v142 : V (Proc.devRef .tc main_v142) = val_main_v142 (F := F) x0 x1) :
    (after ops_s13 V (Proc.devRef .tc main_arg0) = x0)
    ∧ (after ops_s13 V (Proc.devRef .tc main_arg1) = x1)
    ∧ (after ops_s13 V (Proc.devRef .tc main_v142) = val_main_v142 (F := F) x0 x1)
    ∧ (after ops_s13 V (Proc.devRef .tc main_v150) = val_main_v150 (F := F) x0 x1)
    ∧ (after ops_s13 V (Proc.devRef .tc main_v153) = val_main_v153 (F := F) x0) := by
  refine ⟨?_, ?_, ?_, ?_, ?_⟩
  · after_results_simp; exact h_main_arg0
  · after_results_simp; exact h_main_arg1
  · after_results_simp; exact h_main_v142
  · after_results_simp; rw [h_main_arg0, h_main_arg1]; rfl
  · after_results_simp; rw [h_main_arg0]; rfl

/-- Stretch 14: from a valuation holding the earlier stages at the buffers still to be read, the valuation after
    these operations holds the stages at the buffers still to be read afterwards. -/
theorem stage14 (V : Valuation τ sig (Elt F)) (x0 x1 : (⟨S4194304x5, .f32⟩ : BufTy).Contents (Elt F))
    (h_main_arg0 : V (Proc.devRef .tc main_arg0) = x0)
    (h_main_arg1 : V (Proc.devRef .tc main_arg1) = x1)
    (h_main_v142 : V (Proc.devRef .tc main_v142) = val_main_v142 (F := F) x0 x1)
    (h_main_v150 : V (Proc.devRef .tc main_v150) = val_main_v150 (F := F) x0 x1)
    (h_main_v153 : V (Proc.devRef .tc main_v153) = val_main_v153 (F := F) x0) :
    (after ops_s14 V (Proc.devRef .tc main_arg0) = x0)
    ∧ (after ops_s14 V (Proc.devRef .tc main_arg1) = x1)
    ∧ (after ops_s14 V (Proc.devRef .tc main_v159) = val_main_v159 (F := F) x0 x1) := by
  refine ⟨?_, ?_, ?_⟩
  · after_results_simp; exact h_main_arg0
  · after_results_simp; exact h_main_arg1
  · after_results_simp; rw [h_main_v150, h_main_v153, h_main_v142]; rfl

/-- All the stretches in order: from a valuation holding the arguments, the result buffer ends at the last stage and the
    two argument buffers as they began. -/
theorem value (V : Valuation τ sig (Elt F)) (x0 x1 : (⟨S4194304x5, .f32⟩ : BufTy).Contents (Elt F))
    (h_main_arg0 : V (Proc.devRef .tc main_arg0) = x0) (h_main_arg1 : V (Proc.devRef .tc main_arg1) = x1) :
    after ops V (Proc.devRef .tc main_v159) = val_main_v159 (F := F) x0 x1
    ∧ after ops V (Proc.devRef .tc main_arg0) = x0 ∧ after ops V (Proc.devRef .tc main_arg1) = x1 := by
  rw [ops_split]
  simp only [after_append]
  obtain ⟨g0_main_arg0, g0_main_arg1, g0_main_v6, g0_main_v7, g0_main_v9⟩ := stage0 (V) x0 x1 h_main_arg0 h_main_arg1
  obtain ⟨g1_main_arg0, g1_main_arg1, g1_main_v6, g1_main_v7, g1_main_v20, g1_main_v21⟩ := stage1 (after ops_s0 (V)) x0 x1 g0_main_arg0 g0_main_arg1 g0_main_v6 g0_main_v7 g0_main_v9
  obtain ⟨g2_main_arg0, g2_main_arg1, g2_main_v6, g2_main_v7, g2_main_v20, g2_main_v31, g2_main_v33⟩ := stage2 (after ops_s1 (after ops_s0 (V))) x0 x1 g1_main_arg0 g1_main_arg1 g1_main_v6 g1_main_v7 g1_main_v20 g1_main_v21
  obtain ⟨g3_main_arg0, g3_main_arg1, g3_main_v6, g3_main_v7, g3_main_v20, g3_main_v31, g3_main_v36, g3_main_v41, g3_main_v43, g3_main_v45⟩ := stage3 (after ops_s2 (after ops_s1 (after ops_s0 (V)))) x0 x1 g2_main_arg0 g2_main_arg1 g2_main_v6 g2_main_v7 g2_main_v20 g2_main_v31 g2_main_v33
  obtain ⟨g4_main_arg0, g4_main_arg1, g4_main_v7, g4_main_v20, g4_main_v31, g4_main_v36, g4_main_v41, g4_main_v46, g4_main_v51, g4_main_v54, g4_main_v57⟩ := stage4 (after ops_s3 (after ops_s2 (after ops_s1 (after ops_s0 (V))))) x0 x1 g3_main_arg0 g3_main_arg1 g3_main_v6 g3_main_v7 g3_main_v20 g3_main_v31 g3_main_v36 g3_main_v41 g3_main_v43 g3_main_v45
  obtain ⟨g5_main_arg0, g5_main_arg1, g5_main_v7, g5_main_v20, g5_main_v31, g5_main_v36, g5_main_v41, g5_main_v46, g5_main_v51, g5_main_v66, g5_main_v68⟩ := stage5 (after ops_s4 (after ops_s3 (after ops_s2 (after ops_s1 (after ops_s0 (V)))))) x0 x1 g4_main_arg0 g4_main_arg1 g4_main_v7 g4_main_v20 g4_main_v31 g4_main_v36 g4_main_v41 g4_main_v46 g4_main_v51 g4_main_v54 g4_main_v57
  obtain ⟨g6_main_arg0, g6_main_arg1, g6_main_v7, g6_main_v20, g6_main_v31, g6_main_v36, g6_main_v41, g6_main_v46, g6_main_v51, g6_main_v69, g6_main_v72, g6_main_v75, g6_main_v77⟩ := stage6 (after ops_s5 (after ops_s4 (after ops_s3 (after ops_s2 (after ops_s1 (after ops_s0 (V))))))) x0 x1 g5_main_arg0 g5_main_arg1 g5_main_v7 g5_main_v20 g5_main_v31 g5_main_v36 g5_main_v41 g5_main_v46 g5_main_v51 g5_main_v66 g5_main_v68
  obtain ⟨g7_main_arg0, g7_main_arg1, g7_main_v7, g7_main_v20, g7_main_v31, g7_main_v36, g7_main_v41, g7_main_v46, g7_main_v51, g7_main_v69, g7_main_v82, g7_main_v83, g7_main_v84, g7_main_v89⟩ := stage7 (after ops_s6 (after ops_s5 (after ops_s4 (after ops_s3 (after ops_s2 (after ops_s1 (after ops_s0 (V)))))))) x0 x1 g6_main_arg0 g6_main_arg1 g6_main_v7 g6_main_v20 g6_main_v31 g6_main_v36 g6_main_v41 g6_main_v46 g6_main_v51 g6_main_v69 g6_main_v72 g6_main_v75 g6_main_v77
  obtain ⟨g8_main_arg0, g8_main_arg1, g8_main_v7, g8_main_v46, g8_main_v51, g8_main_v82, g8_main_v83, g8_main_v84, g8_main_v89, g8_main_v90, g8_main_v95, g8_main_v98, g8_main_v99, g8_main_v100⟩ := stage8 (after ops_s7 (after ops_s6 (after ops_s5 (after ops_s4 (after ops_s3 (after ops_s2 (after ops_s1 (after ops_s0 (V))))))))) x0 x1 g7_main_arg0 g7_main_arg1 g7_main_v7 g7_main_v20 g7_main_v31 g7_main_v36 g7_main_v41 g7_main_v46 g7_main_v51 g7_main_v69 g7_main_v82 g7_main_v83 g7_main_v84 g7_main_v89
  obtain ⟨g9_main_arg0, g9_main_arg1, g9_main_v7, g9_main_v82, g9_main_v83, g9_main_v84, g9_main_v89, g9_main_v90, g9_main_v95, g9_main_v98, g9_main_v101, g9_main_v104, g9_main_v109, g9_main_v110⟩ := stage9 (after ops_s8 (after ops_s7 (after ops_s6 (after ops_s5 (after ops_s4 (after ops_s3 (after ops_s2 (after ops_s1 (after ops_s0 (V)))))))))) x0 x1 g8_main_arg0 g8_main_arg1 g8_main_v7 g8_main_v46 g8_main_v51 g8_main_v82 g8_main_v83 g8_main_v84 g8_main_v89 g8_main_v90 g8_main_v95 g8_main_v98 g8_main_v99 g8_main_v100
  obtain ⟨g10_main_arg0, g10_main_arg1, g10_main_v82, g10_main_v84, g10_main_v89, g10_main_v90, g10_main_v95, g10_main_v98, g10_main_v101, g10_main_v104, g10_main_v111, g10_main_v118, g10_main_v121⟩ := stage10 (after ops_s9 (after ops_s8 (after ops_s7 (after ops_s6 (after ops_s5 (after ops_s4 (after ops_s3 (after ops_s2 (after ops_s1 (after ops_s0 (V))))))))))) x0 x1 g9_main_arg0 g9_main_arg1 g9_main_v7 g9_main_v82 g9_main_v83 g9_main_v84 g9_main_v89 g9_main_v90 g9_main_v95 g9_main_v98 g9_main_v101 g9_main_v104 g9_main_v109 g9_main_v110
  obtain ⟨g11_main_arg0, g11_main_arg1, g11_main_v95, g11_main_v98, g11_main_v127, g11_main_v131, g11_main_v133⟩ := stage11 (after ops_s10 (after ops_s9 (after ops_s8 (after ops_s7 (after ops_s6 (after ops_s5 (after ops_s4 (after ops_s3 (after ops_s2 (after ops_s1 (after ops_s0 (V)))))))))))) x0 x1 g10_main_arg0 g10_main_arg1 g10_main_v82 g10_main_v84 g10_main_v89 g10_main_v90 g10_main_v95 g10_main_v98 g10_main_v101 g10_main_v104 g10_main_v111 g10_main_v118 g10_main_v121
  obtain ⟨g12_main_arg0, g12_main_arg1, g12_main_v142⟩ := stage12 (after ops_s11 (after ops_s10 (after ops_s9 (after ops_s8 (after ops_s7 (after ops_s6 (after ops_s5 (after ops_s4 (after ops_s3 (after ops_s2 (after ops_s1 (after ops_s0 (V))))))))))))) x0 x1 g11_main_arg0 g11_main_arg1 g11_main_v95 g11_main_v98 g11_main_v127 g11_main_v131 g11_main_v133
  obtain ⟨g13_main_arg0, g13_main_arg1, g13_main_v142, g13_main_v150, g13_main_v153⟩ := stage13 (after ops_s12 (after ops_s11 (after ops_s10 (after ops_s9 (after ops_s8 (after ops_s7 (after ops_s6 (after ops_s5 (after ops_s4 (after ops_s3 (after ops_s2 (after ops_s1 (after ops_s0 (V)))))))))))))) x0 x1 g12_main_arg0 g12_main_arg1 g12_main_v142
  obtain ⟨g14_main_arg0, g14_main_arg1, g14_main_v159⟩ := stage14 (after ops_s13 (after ops_s12 (after ops_s11 (after ops_s10 (after ops_s9 (after ops_s8 (after ops_s7 (after ops_s6 (after ops_s5 (after ops_s4 (after ops_s3 (after ops_s2 (after ops_s1 (after ops_s0 (V))))))))))))))) x0 x1 g13_main_arg0 g13_main_arg1 g13_main_v142 g13_main_v150 g13_main_v153
  exact ⟨g14_main_v159, g14_main_arg0, g14_main_arg1⟩

/-- On every device, for any float values, from any memory with zero counters: every weakly fair execution of
    @main terminates with the result at its last stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v159) = val_main_v159 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      have hv := value (F := F) (launchContents m c) (m ((c.tc : Thread nD τ).loc main_arg0)) (m ((c.tc : Thread nD τ).loc main_arg1)) rfl rfl
      ⟨(h c main_v159).trans hv.1, (h c main_arg0).trans hv.2.1, (h c main_arg1).trans hv.2.2⟩)
    (run_seq scopedRefs_eq scopedSems_eq defs main (fun _ => ops) main_eq (fun _ => ops_sub) m ρ)

end Cert.RefRun

end
-- ==== Proof.lean ====
/-
  The fused EIoU + cross-entropy loss: the tiled kernel program against the plain reference, over the extended reals.

  Both programs compute, for each of the N = 4194304 boxes, the same two numbers — the cross entropy of the
  box's logit against its label and the EIoU term of its squashed corners against the target corners — by the same
  operations in the same order (the kernel on the transposed arrays, a tile of 16384 boxes at a time; the reference on
  columns of the arrays as given). They differ only in how the numbers are added up. The kernel keeps one running
  total: each of its 256 tiles adds (its EIoU sum + coef · its cross-entropy sum), and the total is divided by N at the
  end. The reference forms coef · (Σ cross entropies / N) + (Σ EIoU terms / N). Over the extended reals the two agree
  with no assumption on the values: sums may be regrouped and reordered freely, division by the finite nonzero N is
  multiplication by 1/N, and multiplication by a nonnegative finite constant (coef, 1/N) distributes over sums even
  when infinite terms are present. So the precondition is not used by the value claim.

  The kernel program's three frame claims and its run are the generated class-R frame, read back: the accumulator
  after each grid point by induction on the point, the one write-back of the output block, and the two host lines
  after the kernel. The reference's run is read stretch by stretch over its stages.
-/
import proofs.«121938_j10067403341971_2_alg».proof.Defs
import proofs.«121938_j10067403341971_2_alg».proof.Proof.Gen.Kernel
import proofs.«121938_j10067403341971_2_alg».proof.Proof.Gen.Kernel.Skeleton
import proofs.«121938_j10067403341971_2_alg».proof.Proof.Gen.Kernel.Launch
import proofs.«121938_j10067403341971_2_alg».proof.Proof.Gen.Kernel.Points
import proofs.«121938_j10067403341971_2_alg».proof.Proof.Gen.Kernel.Frame
import proofs.«121938_j10067403341971_2_alg».proof.Proof.Gen.KernelIdeal
import proofs.«121938_j10067403341971_2_alg».proof.Proof.Gen.KernelIdeal.Skeleton
import proofs.«121938_j10067403341971_2_alg».proof.Proof.Gen.KernelIdeal.Launch
import proofs.«121938_j10067403341971_2_alg».proof.Proof.Gen.KernelIdeal.Points
import proofs.«121938_j10067403341971_2_alg».proof.Proof.Gen.KernelIdeal.Frame
import proofs.«121938_j10067403341971_2_alg».proof.Proof.Gen.ReferenceIdeal
import proofs.«121938_j10067403341971_2_alg».proof.Proof.Gen.Pre_finite_inputs
import proofs.«121938_j10067403341971_2_alg».proof.Proof.Algebra
import proofs.«121938_j10067403341971_2_alg».proof.Proof.KernelLoss
import proofs.«121938_j10067403341971_2_alg».proof.Proof.RefSide
import proofs.«121938_j10067403341971_2_alg».proof.Proof.RefRun
import Idealize.ShloMosaic.Adequacy
import Idealize.ShloMosaic.Init

noncomputable section

namespace Cert.Proof

open Idealize.ShloMosaic Idealize.SL.Sem

/-- The word-level kernel program runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.RefRun.run (F := Ideal) m ρ)

/-- The ideal pass rewrote nothing in the kernel program. -/
theorem preserves : Cert.preserves_Kernel_KernelIdeal := trivial

/-- From memories that agree on the two arrays, the kernel program ends at the tiled loss and the reference at the plain
    loss of the same arrays: one extended real. -/
theorem algebraic : Cert.algebraic_KernelIdeal_ReferenceIdeal := by
  intro m ρ m' ρ' _ hagree
  refine ⟨fun c => Cert.KernelRun.tail (F := Ideal) (Cert.KernelRun.lastOut m c), Cert.KernelRun.run (F := Ideal) m ρ, ?_⟩
  refine (θ_run Cert.ReferenceIdeal.defs _ _).mono (fun _ h c => ⟨(h c).1.trans ?_, (h c).2⟩)
    (Cert.RefRun.run (F := Ideal) m' ρ')
  rw [(hagree c).1, (hagree c).2, Cert.RefValue.ref_value, ← Cert.Spec.loss_eq]
  exact (Cert.KernelLoss.kernel_value m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
